-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096 : Shape := ⟨1, ![4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : IVec S4096 32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  main_v3
-- ==== Kernel.lean ====
abbrev S4096x128 : Shape := ⟨2, ![4096, 128]⟩
abbrev S4096 : Shape := ⟨1, ![4096]⟩
abbrev S4096x1 : Shape := ⟨2, ![4096, 1]⟩
abbrev S1x4096 : Shape := ⟨2, ![1, 4096]⟩
abbrev S128x128 : Shape := ⟨2, ![128, 128]⟩
abbrev S128x1 : Shape := ⟨2, ![128, 1]⟩
abbrev S128x4096 : Shape := ⟨2, ![128, 4096]⟩
abbrev S128 : Shape := ⟨1, ![128]⟩
abbrev S_ : Shape := ⟨0, ![]⟩

abbrev nBuf : Space → Nat
  | .hbm => 13
  | .vmem => 10
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S4096x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S4096x128, .f32⟩
  | .local _ .vmem, ⟨3, _⟩ => ⟨S128x1, .i32⟩
  | .local _ .vmem, ⟨4, _⟩ => ⟨S128x1, .i32⟩
  | .local _ .vmem, ⟨5, _⟩ => ⟨S1x4096, .i32⟩
  | .local _ .vmem, ⟨6, _⟩ => ⟨S128x1, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096_S4096x1 : S4096.ShapeCasts S4096x1
  shapeCasts_S4096_S1x4096 : S4096.ShapeCasts S1x4096
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  iota_S128x1_d0_w32 : S128x1.Iotas .tc 32 [0]
  iota_S1x4096_d1_w32 : S1x4096.Iotas .tc 32 [1]
  reduces_S128x4096_S128 : S128x4096.Reduces [1] S128
  shapeCasts_S128_S128x1 : S128.ShapeCasts S128x1
  natLt_1_32 : 1 < 32
  reducesTo_S4096x1_S_d0_1 : S4096x1.ReducesTo [0, 1] S_
  h_S_ : 0 < S_.numel
  dot_S128x128_S4096x128_S128x4096_1_1_0_0_n_n_wf : DotDims.WF S128x128 S4096x128 S128x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S4096x128.size a
  hwx0_0 : ∀ i : grid0.Coords, EltTy.bits .f32 = 32 ∨ (Rect.block (s := S4096x128) S128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .i32 = 32 ∨ (Rect.block (s := S4096x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S4096x1.size a
  hwx0_4 : ∀ i : grid0.Coords, EltTy.bits .f32 = 32 ∨ (Rect.block (s := S4096x1) S128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S4096x1.size a
  hwx0_5 : ∀ i : grid0.Coords, EltTy.bits .f32 = 32 ∨ (Rect.block (s := S4096x1) S128x1.size (cc0_transform_5 i) (hinb0_5 i)).WholeWords (EltTy.packing .f32)

variable [Facts₀]

def dot_S128x128_S4096x128_S128x4096_1_1_0_0_n_n : DotDims S128x128 S4096x128 S128x4096 where
  lhsContracting := [1]
  rhsContracting := [1]
  lhsNonContracting := [0]
  rhsNonContracting := [0]
  lhsBatch := []
  rhsBatch := []
  wf := dot_S128x128_S4096x128_S128x4096_1_1_0_0_n_n_wf

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S128x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S128x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128 : Shape := ⟨2, ![4096, 128]⟩
abbrev S4096 : Shape := ⟨1, ![4096]⟩
abbrev S128x4096 : Shape := ⟨2, ![128, 4096]⟩
abbrev S4096x4096 : Shape := ⟨2, ![4096, 4096]⟩
abbrev S1x4096 : Shape := ⟨2, ![1, 4096]⟩
abbrev S4096x1 : Shape := ⟨2, ![4096, 1]⟩
abbrev S_ : Shape := ⟨0, ![]⟩

abbrev nBuf : Space → Nat
  | .hbm => 104
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096, .i32⟩
  | .hbm, ⟨2, _⟩ => ⟨S128x4096, .f32⟩
  | .hbm, ⟨3, _⟩ => ⟨S4096x4096, .f32⟩
  | .hbm, ⟨4, _⟩ => ⟨S1x4096, .i32⟩
  | .hbm, ⟨5, _⟩ => ⟨S4096x1, .i32⟩
  | .hbm, ⟨6, _⟩ => ⟨S4096x4096, .i32⟩
  | .hbm, ⟨7, _⟩ => ⟨S4096x4096, .i32⟩
  | .hbm, ⟨8, _⟩ => ⟨S4096x4096, .i1⟩
  | .hbm, ⟨9, _⟩ => ⟨S4096x4096, .i32⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S4096x4096, .i1⟩
  | .hbm, ⟨16, _⟩ => ⟨S4096x4096, .i1⟩
  | .hbm, ⟨17, _⟩ => ⟨S4096x4096, .i1⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096x4096, .f32⟩
  | .hbm, ⟨36, _⟩ => ⟨S4096x4096, .i1⟩
  | .hbm, ⟨37, _⟩ => ⟨S4096x4096, .i1⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .f32⟩
  | .hbm, ⟨42, _⟩ => ⟨S4096x4096, .f32⟩
  | .hbm, ⟨43, _⟩ => ⟨S4096x4096, .i1⟩
  | .hbm, ⟨44, _⟩ => ⟨S4096x4096, .i1⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S_, .f32⟩
  | .hbm, ⟨67, _⟩ => ⟨S4096x4096, .f32⟩
  | .hbm, ⟨68, _⟩ => ⟨S4096x4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S_, .f32⟩
  | .hbm, ⟨73, _⟩ => ⟨S4096, .f32⟩
  | .hbm, ⟨74, _⟩ => ⟨S4096, .f32⟩
  | .hbm, ⟨75, _⟩ => ⟨S4096, .f32⟩
  | .hbm, ⟨76, _⟩ => ⟨S_, .f32⟩
  | .hbm, ⟨77, _⟩ => ⟨S4096, .f32⟩
  | .hbm, ⟨78, _⟩ => ⟨S4096, .f32⟩
  | .hbm, ⟨79, _⟩ => ⟨S_, .i1⟩
  | .hbm, ⟨80, _⟩ => ⟨S4096, .i1⟩
  | .hbm, ⟨81, _⟩ => ⟨S_, .i1⟩
  | .hbm, ⟨82, _⟩ => ⟨S4096, .i1⟩
  | .hbm, ⟨83, _⟩ => ⟨S4096, .i1⟩
  | .hbm, ⟨84, _⟩ => ⟨S_, .i1⟩
  | .hbm, ⟨85, _⟩ => ⟨S4096, .i1⟩
  | .hbm, ⟨86, _⟩ => ⟨S4096, .i1⟩
  | .hbm, ⟨87, _⟩ => ⟨S_, .i1⟩
  | .hbm, ⟨88, _⟩ => ⟨S4096, .i1⟩
  | .hbm, ⟨89, _⟩ => ⟨S4096, .i1⟩
  | .hbm, ⟨90, _⟩ => ⟨S4096, .i32⟩
  | .hbm, ⟨91, _⟩ => ⟨S_, .i32⟩
  | .hbm, ⟨92, _⟩ => ⟨S_, .i32⟩
  | .hbm, ⟨93, _⟩ => ⟨S4096, .f32⟩
  | .hbm, ⟨94, _⟩ => ⟨S_, .f32⟩
  | .hbm, ⟨95, _⟩ => ⟨S_, .f32⟩
  | .hbm, ⟨96, _⟩ => ⟨S4096, .f32⟩
  | .hbm, ⟨97, _⟩ => ⟨S4096, .f32⟩
  | .hbm, ⟨98, _⟩ => ⟨S_, .f32⟩
  | .hbm, ⟨99, _⟩ => ⟨S_, .f32⟩
  | .hbm, ⟨100, _⟩ => ⟨S_, .i32⟩
  | .hbm, ⟨101, _⟩ => ⟨S_, .i32⟩
  | .hbm, ⟨102, _⟩ => ⟨S_, .f32⟩
  | .hbm, ⟨103, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_call2_v0 : Ref sig .tc := ⟨.hbm, 53, rfl⟩
abbrev main_call2_v1 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_call3_v0 : Ref sig .tc := ⟨.hbm, 66, rfl⟩
abbrev main_call3_v1 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_14 : Ref sig .tc := ⟨.hbm, 76, rfl⟩
abbrev main_v50 : Ref sig .tc := ⟨.hbm, 77, rfl⟩
abbrev main_v51 : Ref sig .tc := ⟨.hbm, 78, rfl⟩
abbrev main_c_15 : Ref sig .tc := ⟨.hbm, 79, rfl⟩
abbrev main_v52 : Ref sig .tc := ⟨.hbm, 80, rfl⟩
abbrev main_c_16 : Ref sig .tc := ⟨.hbm, 81, rfl⟩
abbrev main_v53 : Ref sig .tc := ⟨.hbm, 82, rfl⟩
abbrev main_v54 : Ref sig .tc := ⟨.hbm, 83, rfl⟩
abbrev main_c_17 : Ref sig .tc := ⟨.hbm, 84, rfl⟩
abbrev main_v55 : Ref sig .tc := ⟨.hbm, 85, rfl⟩
abbrev main_v56 : Ref sig .tc := ⟨.hbm, 86, rfl⟩
abbrev main_c_18 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_c_19 : Ref sig .tc := ⟨.hbm, 91, rfl⟩
abbrev main_v60 : Ref sig .tc := ⟨.hbm, 92, rfl⟩
abbrev main_v61 : Ref sig .tc := ⟨.hbm, 93, rfl⟩
abbrev main_cst_20 : Ref sig .tc := ⟨.hbm, 94, rfl⟩
abbrev main_call4_v0 : Ref sig .tc := ⟨.hbm, 95, rfl⟩
abbrev main_call4_v1 : Ref sig .tc := ⟨.hbm, 96, rfl⟩
abbrev main_v62 : Ref sig .tc := ⟨.hbm, 97, rfl⟩
abbrev main_cst_21 : Ref sig .tc := ⟨.hbm, 98, rfl⟩
abbrev main_v63 : Ref sig .tc := ⟨.hbm, 99, rfl⟩
abbrev main_c_22 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩

abbrev nD : Nat := 1
abbrev τ : Topo := Topo.v7x

variable {F : FTy → Type} [FloatOps F]

class Facts₀ : Prop where
  transposes_S4096x128_S128x4096_1_0 : S4096x128.Transposes [1, 0] S128x4096
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  natLt_1_32 : 1 < 32
  reducesTo_S4096_S_d0 : S4096.ReducesTo [0] S_
  dot_S4096x128_S128x4096_S4096x4096_1_0_0_1_n_n_wf : DotDims.WF S4096x128 S128x4096 S4096x4096 [1] [0] [0] [1] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf

class Facts : Prop extends Facts₀ where

variable [Facts]
-- ==== Proof.KBody.lean ====
/-
  The kernel's body, at any float instance: one grid point handles a block of 128 anchor rows.  It loads the
  anchors' embedding block, the whole embedding table, the anchors' label column and the whole label row, and stores
  one column of 128 per-anchor loss contributions and one column of 128 per-anchor validity flags; each of the two
  output buffers is loaded once before it is overwritten whole, the loaded value unused.  Stated here: what the two
  output buffers hold after the body as a function of the four input blocks, the body's triple, and the pipeline's
  proof data with its body obligation at every grid point.
-/
import proofs.«142021_j72481868087461_2_alg».proof.Proof.Gen.Kernel.Launch
import proofs.«142021_j72481868087461_2_alg».proof.Proof.Gen.Kernel.Skeleton
import proofs.«142021_j72481868087461_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers when the region is entered: the two reshapes of the label vector have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the two output buffers -/

abbrev rQ : Rect S128x128 := Rect.unit (s := S128x128) ![0, 0] S128x128.size inb_S128x128_S128x128_0_0
abbrev rK : Rect S4096x128 := Rect.unit (s := S4096x128) ![0, 0] S4096x128.size inb_S4096x128_S4096x128_0_0
abbrev rCol : Rect S128x1 := Rect.unit (s := S128x1) ![0, 0] S128x1.size inb_S128x1_S128x1_0_0
abbrev rRow : Rect S1x4096 := Rect.unit (s := S1x4096) ![0, 0] S1x4096.size inb_S1x4096_S1x4096_0_0

/-- The six values the first half of the body hands the second, from the four loaded blocks. -/
def contribOf (i : grid0.Coords) (v0 : Vec F S128x128 .f32) (v1 : Vec F S4096x128 .f32) (v3 : Vec F S128x1 .i32) (v5 : Vec F S1x4096 .i32) :
    FVec F S128x1 .f32 :=
  k0_pay14 (k0_pay1 v0 v1) (k0_pay6 i v0 v1 v3 v5) (k0_pay7 i v0 v1 v3 v5) (k0_pay8 i v0 v1 v3 v5) (k0_pay9 i v0 v1 v3 v5) (k0_pay10 v0 v1)
def flagOf (i : grid0.Coords) (v0 : Vec F S128x128 .f32) (v1 : Vec F S4096x128 .f32) (v3 : Vec F S128x1 .i32) (v5 : Vec F S1x4096 .i32) :
    FVec F S128x1 .f32 :=
  k0_pay15 (k0_pay1 v0 v1) (k0_pay6 i v0 v1 v3 v5) (k0_pay7 i v0 v1 v3 v5) (k0_pay8 i v0 v1 v3 v5) (k0_pay9 i v0 v1 v3 v5) (k0_pay10 v0 v1)

/-- The contribution column's buffer after the body: its one store, over the loads of the four input blocks. -/
def out4 (i : grid0.Coords) (x0 : Vec F S128x128 .f32) (x1 : Vec F S4096x128 .f32) (x2 : Vec F S128x1 .i32) (x3 : Vec F S1x4096 .i32) : Vec F S128x1 .f32 :=
  View.canon [⟨rCol, contribOf i (View.ld x0 rQ) (View.ld x1 rK) (View.ld x2 rCol) (View.ld x3 rRow)⟩]
/-- The flag column's buffer after the body. -/
def out5 (i : grid0.Coords) (x0 : Vec F S128x128 .f32) (x1 : Vec F S4096x128 .f32) (x2 : Vec F S128x1 .i32) (x3 : Vec F S1x4096 .i32) : Vec F S128x1 .f32 :=
  View.canon [⟨rCol, flagOf i (View.ld x0 rQ) (View.ld x1 rK) (View.ld x2 rCol) (View.ld x3 rRow)⟩]

/-- One store through the whole-column rectangle covers the column. -/
theorem coverCol (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 4000000 in
/-- The body on whole staging memrefs, the inputs' at read contents `xW` and the outputs' at anything, runs to the
    continuation holding the inputs' as they were and the outputs' at `out4`, `out5` of the inputs'. -/
theorem sound_kernel (c : Dev nD) (E : Set ℕ) (i : grid0.Coords)
    (arg1 : Memref sig .tc .vmem S128x128 .f32) (harg1 : arg1.IsWhole) (arg2 : Memref sig .tc .vmem S4096x128 .f32) (harg2 : arg2.IsWhole)
    (arg3 : Memref sig .tc .vmem S128x1 .i32) (harg3 : arg3.IsWhole) (arg4 : Memref sig .tc .vmem S1x4096 .i32) (harg4 : arg4.IsWhole)
    (arg5 : Memref sig .tc .vmem S128x1 .f32) (harg5 : arg5.IsWhole) (arg6 : Memref sig .tc .vmem S128x1 .f32) (harg6 : arg6.IsWhole)
    (x0 : Vec F S128x128 .f32) (x1 : Vec F S4096x128 .f32) (x2 : Vec F S128x1 .i32) (x3 : Vec F S1x4096 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 i x0 x1 x2 x3) ∗ owns (c : Thread nD τ) arg6 fullShare (out5 i x0 x1 x2 x3)) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverCol _)
  · iexists _; isplitr
    swap; · iexact H5
    ipureintro
    exact View.read_writes_eq_canon _ _ _ (coverCol _)

/-! ## The pipeline's proof data -/

/-- The proof data on core `c`: the arrays as the region finds them; after the body at point `t` each input's buffer at
    its block and the two outputs' at `out4`, `out5` of the input blocks; the invariant the scoped rest and the generator
    register, untouched; nothing owed.  The embedding table is read through two windows, which hold it at the two
    halves of the full share; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t) (iblk m c 3 t)
    | ⟨5, _⟩ => out5 (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = out4 (grid0.coords t) (iblk m c 0 t) (iblk m c 1 t) (iblk m c 2 t) (iblk m c 3 t) := by dsimp only [dats]
theorem after5 (c : Dev nD) (t : Fin cfg0.N) : (dats m 0 c).after 5 t
    = out5 (grid0.coords t) (iblk m c 0 t) (iblk m c 1 t) (iblk m c 2 t) (iblk m c 3 t) := by dsimp only [dats]

/-- Each input's current staging buffer holds its block at every point, fetched there or not: an unfetched window's
    block index has not moved, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Body

end
-- ==== Proof.KRun.lean ====
/-
  The run of the whole program at any float instance: the two reshapes of the label vector, the region, then the two
  sums, the maximum with one and the quotient.  The embedding table is one array read through two windows; its full
  share is dealt to them in halves when the region is entered and joined again when it is left, so that the host lines
  after the region run over every unscoped buffer whole.
-/
import proofs.«142021_j72481868087461_2_alg».proof.Proof.KBody

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares -/

/-- The pipeline's arrays, window by window, at the share each window holds. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- The distinct buffers behind the arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

/-- The buffers behind the arrays, whole, ARE the arrays at the windows' shares when the windows' contents are the
    buffers': the embedding table's full share is its two halves. -/
theorem arrays_iff_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (Pipeline.arrBufs (Ix := Unit) (Name := ℕ) (U := UR sig nD τ) (Lvl := ℕ) spec0 c W : sProp 𝕄) ⊣⊢ (dats m 0 c).arrays G := by
  rw [arrays_chain, arrBufs_chain, hG 0, hG 1, hG 2, hG 3, hG 4, hG 5]
  constructor
  · iintro ⟨H0, H2, H3, H4, H5⟩
    ihave H := (pointsTo_share (PosShare.mem_left_op_right fullShare)).1 $$ H0
    icases H with ⟨Hl, Hr⟩
    isplitl [Hl]; · iexact Hl
    isplitl [Hr]; · iexact Hr
    isplitl [H2]; · iexact H2
    isplitl [H3]; · iexact H3
    isplitl [H4]; · iexact H4
    iexact H5
  · iintro ⟨Hl, Hr, H2, H3, H4, H5⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    iexact H5

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the seven host lines after it, entered at the contents the two reshapes
    leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The buffers when the region is left, and after the last host line -/

/-- The contribution column and the flag column as the region leaves them: every block written back. -/
abbrev contribArr (c : Dev nD) : Buf (Elt F) ((c : Thread nD τ).loc main_v2_0) := (dats m 0 c).arrAt 4 cfg0.N
abbrev flagArr (c : Dev nD) : Buf (Elt F) ((c : Thread nD τ).loc main_v2_1) := (dats m 0 c).arrAt 5 cfg0.N

/-- Core `c`'s buffers when the region is left: the two result columns at what the region wrote, every other buffer as
    the region found it. -/
def Wx (c : Dev nD) : Valuation τ sig (Elt F) :=
  Function.update (Function.update (V0 m c) (Proc.devRef .tc main_v2_0) (contribArr m c)) (Proc.devRef .tc main_v2_1) (flagArr m c)

/-- and after the seven host lines that follow. -/
def Wf (c : Dev nD) : Valuation τ sig (Elt F) := StableHlo.after (List.flatten [hostOps1]) (Wx m c)

theorem Wx_of_ne (c : Dev nD) (b : Ref sig .tc) (h4 : b ≠ main_v2_0) (h5 : b ≠ main_v2_1) :
    Wx m c (Proc.devRef .tc b) = V m c b := by
  unfold Wx
  rw [Function.update_of_ne (fun e => h5 (Proc.devRef_injective _ e)), Function.update_of_ne (fun e => h4 (Proc.devRef_injective _ e))]

theorem Wx_contrib (c : Dev nD) : Wx m c (Proc.devRef .tc main_v2_0) = contribArr m c := by
  unfold Wx
  rw [Function.update_of_ne (fun e => absurd (Proc.devRef_injective _ e) (by decide)), Function.update_self]

theorem Wx_flag (c : Dev nD) : Wx m c (Proc.devRef .tc main_v2_1) = flagArr m c := by
  unfold Wx
  rw [Function.update_self]

/-- Every window's array, as the region leaves it, is what `Wx` holds behind it: an input window's array is unchanged. -/
theorem Wx_arr (c : Dev nD) (w : Fin cfg0.W) : (dats m 0 c).arrAt w cfg0.N = Wx m c (Proc.devRef .tc (Pipeline.arrRef spec0 w)) := by
  match w with
  | ⟨0, _⟩ => exact ((dats m 0 c).arrAt_in 0 rfl _).trans ((A_eq m c 0).trans (Wx_of_ne m c main_arg0 (by decide) (by decide)).symm)
  | ⟨1, _⟩ => exact ((dats m 0 c).arrAt_in 1 rfl _).trans ((A_eq m c 1).trans (Wx_of_ne m c main_arg0 (by decide) (by decide)).symm)
  | ⟨2, _⟩ => exact ((dats m 0 c).arrAt_in 2 rfl _).trans ((A_eq m c 2).trans (Wx_of_ne m c main_v0 (by decide) (by decide)).symm)
  | ⟨3, _⟩ => exact ((dats m 0 c).arrAt_in 3 rfl _).trans ((A_eq m c 3).trans (Wx_of_ne m c main_v1 (by decide) (by decide)).symm)
  | ⟨4, _⟩ => exact (Wx_contrib m c).symm
  | ⟨5, _⟩ => exact (Wx_flag m c).symm

/-- No host line after the region writes an array of the pipeline. -/
theorem hostOps1_keeps (w : Fin cfg0.W) : ∀ op ∈ (List.flatten [hostOps1] : List (HloOp τ sig (Elt F))),
    Proc.devRef .tc (Pipeline.arrRef spec0 w) ∉ op.writes := by
  intro op hop
  simp only [hostOps1, List.flatten_cons, List.flatten_nil, List.append_nil, List.mem_cons, List.mem_nil_iff, or_false] at hop
  rcases hop with rfl | rfl | rfl | rfl | rfl | rfl | rfl <;>
    (fin_cases w <;> simp only [StableHlo.nullary_writes, StableHlo.binary_writes, Finset.mem_singleton] <;>
      exact StableHlo.devRef_ne_of_ne (by decide))

theorem Wf_arr (c : Dev nD) (w : Fin cfg0.W) : (dats m 0 c).arrAt w cfg0.N = Wf m c (Proc.devRef .tc (Pipeline.arrRef spec0 w)) := by
  unfold Wf
  rw [StableHlo.after_of_forall_not_mem _ _ (hostOps1_keeps w)]
  exact Wx_arr m c w

/-- Neither do they write an argument. -/
theorem Wf_main_arg1 (c : Dev nD) : Wf m c (Proc.devRef .tc main_arg1) = m ((c : Thread nD τ).loc main_arg1) := by
  unfold Wf
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide))), Wx_of_ne m c main_arg1 (by decide) (by decide)]
  exact V_main_arg1 m c

/-! ## The host lines after the region -/

/-- The bypassing buffers hold the same when the region is left as when it was entered: none is a result column. -/
theorem rest_V_eq_Wx (c : Dev nD) :
    (Pipeline.unscopedRest (Ix := Unit) (Name := ℕ) (U := UR sig nD τ) (Lvl := ℕ) spec0 c (V m c) : sProp 𝕄)
      = Pipeline.unscopedRest spec0 c (fun b => Wx m c (Proc.devRef .tc b)) := by
  unfold Pipeline.unscopedRest
  exact bigSep_congr fun b hb => by
    dsimp only
    rw [Wx_of_ne m c b
      (fun e => (Finset.mem_sdiff.mp hb).2 (Finset.mem_image.mpr ⟨4, Finset.mem_univ _, by rw [e]⟩))
      (fun e => (Finset.mem_sdiff.mp hb).2 (Finset.mem_image.mpr ⟨5, Finset.mem_univ _, by rw [e]⟩))]

set_option backward.isDefEq.respectTransparency.types false in
/-- From the region's exit — the arrays at what the region left, the bypassing buffers as it found them — the seven
    host lines run over every unscoped buffer whole (the embedding table's halves joined) and hand back the arrays
    unchanged and the bypassing buffers at what the lines leave. -/
theorem tail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => Wf m c (Proc.devRef .tc b))) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c : Thread nD τ) none) Set.univ
          (Pipeline.chain [StableHlo.seq hostOps1]) Q' := by
  have hin : iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (Wx m c) : sProp 𝕄) := by
    rw [← Pipeline.unscopedBufs_held (Ix := Unit) (Name := ℕ) (U := UR sig nD τ) (Lvl := ℕ) c (Wx m c),
      Pipeline.unscopedBufs_split₀ cfgs (0 : Fin 1) winFacts₀0.arr_unscoped c, rest_V_eq_Wx]
    exact sep_mono (arrays_iff_bufs m c _ _ (Wx_arr m c)).2 .rfl
  have hout : (StableHlo.held (c : Thread nD τ) (Pipeline.ucRefs τ sig) (Wf m c) : sProp 𝕄)
      ⊢ iprop((dats m 0 c).arrays ((dats m 0 c).arrAt · cfg0.N)
        ∗ Pipeline.unscopedRest (Ix := Unit) (Name := ℕ) (U := UR sig nD τ) (Lvl := ℕ) spec0 c (fun b => Wf m c (Proc.devRef .tc b))) := by
    rw [← Pipeline.unscopedBufs_held (Ix := Unit) (Name := ℕ) (U := UR sig nD τ) (Lvl := ℕ) c (Wf m c),
      Pipeline.unscopedBufs_split₀ cfgs (0 : Fin 1) winFacts₀0.arr_unscoped c]
    exact sep_mono (arrays_iff_bufs m c _ _ (Wf_arr m c)).1 .rfl
  rw [show ([StableHlo.seq hostOps1] : List (Prog (TpuEff nD τ sig (Elt F) (Pipeline.Sig Λ₀ (Fin 1) fun p => (pcfgs (F := F) p).Adm) .tc) PUnit))
      = ([hostOps1] : List (List (HloOp τ sig (Elt F)))).map StableHlo.seq ++ [] from rfl]
  iintro ⟨Hk, Hb, Ha, HZ⟩
  ihave Hh := hin $$ [Ha HZ]
  · isplitl [Ha] <;> iassumption
  iapply (Pipeline.wp_seqs_then (pcfgs (F := F)) defs₀ Variants.none c (Pipeline.ucRefs τ sig) [] [hostOps1]
    (fun ops hops op hop => by
      simp only [List.mem_cons, List.mem_nil_iff, or_false] at hops
      subst hops
      exact Pipeline.sub_ucRefs op ((List.forall_iff_forall_mem.mp hostOps1_sub) op hop))
    (fun ops hops op hop => by
      simp only [List.mem_cons, List.mem_nil_iff, or_false] at hops
      subst hops
      exact (List.forall_iff_forall_mem.mp hostOps1_fresh) op hop)
    (Wx m c)) $$ [Hb Hh]
  · isplitl [Hb] <;> iassumption
  iintro ⟨Hb, Hh⟩
  rw [Pipeline.chain_nil, wp_pure]
  imodintro
  iapply Hk
  iapply hout
  iexact Hh

/-! ## The run -/

/-- What every final state satisfies: the result at what the host lines compute from the two columns the region wrote, the
    arguments as launched. -/
def Post (r : PUnit × MemSt nD τ sig (Elt F)) : Prop := ∀ c : Dev nD,
  r.2.mem ((c.tc : Thread nD τ).loc main_v6) = Wf m c (Proc.devRef .tc main_v6)
  ∧ r.2.mem ((c.tc : Thread nD τ).loc main_arg0) = m ((c.tc : Thread nD τ).loc main_arg0)
  ∧ r.2.mem ((c.tc : Thread nD τ).loc main_arg1) = m ((c.tc : Thread nD τ).loc main_arg1)

set_option backward.isDefEq.respectTransparency.types false in
/-- At the compiled mesh, for any float values, from any memory with zero counters: every weakly fair execution of
    @main on the TensorCores terminates, nothing faulting, in a state satisfying `Post`. -/
theorem run_main : θ_run defs (onTc (τ := τ) (main (F := F))) ⟨m, fun _ => 0, ρ⟩ (Post m) := by
  classical
  exact Pipeline.θ_run_region_pf_tail (pcfgs (F := F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff_bufs m c (V m c) _ fun w => A_eq m c w).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wf m c (Proc.devRef .tc b)))
    (hX := fun c => by
      iintro ⟨HU, -, -, -, Hp, -⟩; imodintro
      isplitl [Hp]; · iexists _; iexact Hp
      iexact HU)
    (hin := fun c => by
      rw [show (dats m 0 c).Φ 0 = Pipeline.ΦA spec0 c from rfl]
      unfold Pipeline.ΦA; iintro ⟨Hp, Ht, Hr⟩
      isplitl [Hr] <;> iassumption)
    (hout := fun c => by
      rw [show (dats m 0 c).Φ (Fin.last cfg0.N) = Pipeline.ΦA spec0 c from rfl, Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail m c Q')
    (QY := fun c s => ∀ b ∈ Pipeline.restRefsP sig Pipeline.Prefetch.none spec0, s.mem ((c.tc : Thread nD τ).loc b) = Wf m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wf m c (Proc.devRef .tc b)) s')
      isplitl [HU] <;> iassumption)
    (hQ := fun s h c => by
      have hr := Pipeline.rest_of_restP Pipeline.Prefetch.none spec0 (fun k => k.elim0) c (fun b => Wf m c (Proc.devRef .tc b)) s
        (fun k => k.elim0) (h c).2.1 (h c).2.2
      refine ⟨hr main_v6 (Pipeline.mem_restRefs_of main_v6 (by decide) (by decide)), ?_,
        (hr main_arg1 (Pipeline.mem_restRefs_of main_arg1 (by decide) (by decide))).trans (Wf_main_arg1 m c)⟩
      exact ((h c).1 0).trans (((dats m 0 c).arrAt_in 0 rfl _).trans ((A_eq m c 0).trans (V_main_arg0 m c))))

end Cert.Kernel.Body

end
-- ==== Proof.Body.lean ====
/-
  The kernel's body, at any float instance: one grid point handles a block of 128 anchor rows.  It loads the
  anchors' embedding block, the whole embedding table, the anchors' label column and the whole label row, and stores
  one column of 128 per-anchor loss contributions and one column of 128 per-anchor validity flags; each of the two
  output buffers is loaded once before it is overwritten whole, the loaded value unused.  Stated here: what the two
  output buffers hold after the body as a function of the four input blocks, the body's triple, and the pipeline's
  proof data with its body obligation at every grid point.
-/
import proofs.«142021_j72481868087461_2_alg».proof.Proof.Gen.KernelIdeal.Launch
import proofs.«142021_j72481868087461_2_alg».proof.Proof.Gen.KernelIdeal.Skeleton
import proofs.«142021_j72481868087461_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers when the region is entered: the two reshapes of the label vector have run. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the two output buffers -/

abbrev rQ : Rect S128x128 := Rect.unit (s := S128x128) ![0, 0] S128x128.size inb_S128x128_S128x128_0_0
abbrev rK : Rect S4096x128 := Rect.unit (s := S4096x128) ![0, 0] S4096x128.size inb_S4096x128_S4096x128_0_0
abbrev rCol : Rect S128x1 := Rect.unit (s := S128x1) ![0, 0] S128x1.size inb_S128x1_S128x1_0_0
abbrev rRow : Rect S1x4096 := Rect.unit (s := S1x4096) ![0, 0] S1x4096.size inb_S1x4096_S1x4096_0_0

/-- The six values the first half of the body hands the second, from the four loaded blocks. -/
def contribOf (i : grid0.Coords) (v0 : Vec F S128x128 .f32) (v1 : Vec F S4096x128 .f32) (v3 : Vec F S128x1 .i32) (v5 : Vec F S1x4096 .i32) :
    FVec F S128x1 .f32 :=
  k0_pay14 (k0_pay1 v0 v1) (k0_pay6 i v0 v1 v3 v5) (k0_pay7 i v0 v1 v3 v5) (k0_pay8 i v0 v1 v3 v5) (k0_pay9 i v0 v1 v3 v5) (k0_pay10 v0 v1)
def flagOf (i : grid0.Coords) (v0 : Vec F S128x128 .f32) (v1 : Vec F S4096x128 .f32) (v3 : Vec F S128x1 .i32) (v5 : Vec F S1x4096 .i32) :
    FVec F S128x1 .f32 :=
  k0_pay15 (k0_pay1 v0 v1) (k0_pay6 i v0 v1 v3 v5) (k0_pay7 i v0 v1 v3 v5) (k0_pay8 i v0 v1 v3 v5) (k0_pay9 i v0 v1 v3 v5) (k0_pay10 v0 v1)

/-- The contribution column's buffer after the body: its one store, over the loads of the four input blocks. -/
def out4 (i : grid0.Coords) (x0 : Vec F S128x128 .f32) (x1 : Vec F S4096x128 .f32) (x2 : Vec F S128x1 .i32) (x3 : Vec F S1x4096 .i32) : Vec F S128x1 .f32 :=
  View.canon [⟨rCol, contribOf i (View.ld x0 rQ) (View.ld x1 rK) (View.ld x2 rCol) (View.ld x3 rRow)⟩]
/-- The flag column's buffer after the body. -/
def out5 (i : grid0.Coords) (x0 : Vec F S128x128 .f32) (x1 : Vec F S4096x128 .f32) (x2 : Vec F S128x1 .i32) (x3 : Vec F S1x4096 .i32) : Vec F S128x1 .f32 :=
  View.canon [⟨rCol, flagOf i (View.ld x0 rQ) (View.ld x1 rK) (View.ld x2 rCol) (View.ld x3 rRow)⟩]

/-- One store through the whole-column rectangle covers the column. -/
theorem coverCol (p0 : Vec F S128x1 .f32) (y : S128x1.Idx) :
    ∃ pc ∈ ([⟨rCol, p0⟩] : List (View.Piece (Elt F) S128x1 .f32)), y ∈ pc.1.set :=
  View.cover_of_tiled [⟨rCol, p0⟩] S128x1.size (by rfl) y

/-! ## The body's triple -/

set_option maxHeartbeats 4000000 in
/-- The body on whole staging memrefs, the inputs' at read contents `xW` and the outputs' at anything, runs to the
    continuation holding the inputs' as they were and the outputs' at `out4`, `out5` of the inputs'. -/
theorem sound_kernel (c : Dev nD) (E : Set ℕ) (i : grid0.Coords)
    (arg1 : Memref sig .tc .vmem S128x128 .f32) (harg1 : arg1.IsWhole) (arg2 : Memref sig .tc .vmem S4096x128 .f32) (harg2 : arg2.IsWhole)
    (arg3 : Memref sig .tc .vmem S128x1 .i32) (harg3 : arg3.IsWhole) (arg4 : Memref sig .tc .vmem S1x4096 .i32) (harg4 : arg4.IsWhole)
    (arg5 : Memref sig .tc .vmem S128x1 .f32) (harg5 : arg5.IsWhole) (arg6 : Memref sig .tc .vmem S128x1 .f32) (harg6 : arg6.IsWhole)
    (x0 : Vec F S128x128 .f32) (x1 : Vec F S4096x128 .f32) (x2 : Vec F S128x1 .i32) (x3 : Vec F S1x4096 .i32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 i x0 x1 x2 x3) ∗ owns (c : Thread nD τ) arg6 fullShare (out5 i x0 x1 x2 x3)) -∗ K ⟨⟩))
      ⊢ wp frame (wpE (defs₀ (F := F)) Variants.none c none) E (cc0__fused_kernel i arg1 harg1 arg2 harg2 arg3 harg3 arg4 harg4 arg5 harg5 arg6 harg6) K := by
  simp only [cc0__fused_kernel_eq_skeleton]; unfold cc0__fused_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverCol _)
  · iexists _; isplitr
    swap; · iexact H5
    ipureintro
    exact View.read_writes_eq_canon _ _ _ (coverCol _)

/-! ## The pipeline's proof data -/

/-- The proof data on core `c`: the arrays as the region finds them; after the body at point `t` each input's buffer at
    its block and the two outputs' at `out4`, `out5` of the input blocks; the invariant the scoped rest and the generator
    register, untouched; nothing owed.  The embedding table is read through two windows, which hold it at the two
    halves of the full share; every other array is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (grid0.coords t) (iblk m c 0 t) (iblk m c 1 t) (iblk m c 2 t) (iblk m c 3 t)
    | ⟨5, _⟩ => out5 (grid0.coords t) (iblk m c 0 t) (iblk m c 1 t) (iblk m c 2 t) (iblk m c 3 t)
  Φ _ := Pipeline.ΦA spec0 c
  q w := match w with
    | ⟨0, _⟩ => fullShare.left
    | ⟨1, _⟩ => fullShare.right
    | _ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t
    = out4 (grid0.coords t) (iblk m c 0 t) (iblk m c 1 t) (iblk m c 2 t) (iblk m c 3 t) := by dsimp only [dats]
theorem after5 (c : Dev nD) (t : Fin cfg0.N) : (dats m 0 c).after 5 t
    = out5 (grid0.coords t) (iblk m c 0 t) (iblk m c 1 t) (iblk m c 2 t) (iblk m c 3 t) := by dsimp only [dats]

/-- Each input's current staging buffer holds its block at every point, fetched there or not: an unfetched window's
    block index has not moved, and the body leaves the block in place. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Body

end
-- ==== Proof.Run.lean ====
/-
  The run of the whole program at any float instance: the two reshapes of the label vector, the region, then the two
  sums, the maximum with one and the quotient.  The embedding table is one array read through two windows; its full
  share is dealt to them in halves when the region is entered and joined again when it is left, so that the host lines
  after the region run over every unscoped buffer whole.
-/
import proofs.«142021_j72481868087461_2_alg».proof.Proof.Body

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' shares -/

/-- The pipeline's arrays, window by window, at the share each window holds. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2_0) ↦{fullShare} G 4) ∗ (((c : Thread nD τ).loc main_v2_1) ↦{fullShare} G 5)) := by
  unfold Dat.arrays
  rw [bigSep_W0]
  rw [(arr_whole0 0).set_eq_univ, (arr_whole0 2).set_eq_univ, (arr_whole0 3).set_eq_univ,
    (arr_whole0 4).set_eq_univ, (arr_whole0 5).set_eq_univ]
  rfl

/-- The distinct buffers behind the arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg0, main_v0, main_v1, main_v2_0, main_v2_1] (by decide) (by decide) _

/-- The buffers behind the arrays, whole, ARE the arrays at the windows' shares when the windows' contents are the
    buffers': the embedding table's full share is its two halves. -/
theorem arrays_iff_bufs (c : Dev nD) (W : (b : Ref sig .tc) → Buf (Elt F) ((c : Thread nD τ).loc b))
    (G : (w : Fin cfg0.W) → Buf (Elt F) ((cfg0.win w).arr.view.loc (c : Thread nD τ))) (hG : ∀ w, G w = W (Pipeline.arrRef spec0 w)) :
    (Pipeline.arrBufs (Ix := Unit) (Name := ℕ) (U := UR sig nD τ) (Lvl := ℕ) spec0 c W : sProp 𝕄) ⊣⊢ (dats m 0 c).arrays G := by
  rw [arrays_chain, arrBufs_chain, hG 0, hG 1, hG 2, hG 3, hG 4, hG 5]
  constructor
  · iintro ⟨H0, H2, H3, H4, H5⟩
    ihave H := (pointsTo_share (PosShare.mem_left_op_right fullShare)).1 $$ H0
    icases H with ⟨Hl, Hr⟩
    isplitl [Hl]; · iexact Hl
    isplitl [Hr]; · iexact Hr
    isplitl [H2]; · iexact H2
    isplitl [H3]; · iexact H3
    isplitl [H4]; · iexact H4
    iexact H5
  · iintro ⟨Hl, Hr, H2, H3, H4, H5⟩
    isplitl [Hl Hr]
    · iapply (pointsTo_share (PosShare.mem_left_op_right fullShare)).2
      isplitl [Hl]; · iexact Hl
      iexact Hr
    isplitl [H2]; · iexact H2
    isplitl [H3]; · iexact H3
    isplitl [H4]; · iexact H4
    iexact H5

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the seven host lines after it, entered at the contents the two reshapes
    leave. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Neither reshape writes an argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-! ## The buffers when the region is left, and after the last host line -/

/-- The contribution column and the flag column as the region leaves them: every block written back. -/
abbrev contribArr (c : Dev nD) : Buf (Elt F) ((c : Thread nD τ).loc main_v2_0) := (dats m 0 c).arrAt 4 cfg0.N
abbrev flagArr (c : Dev nD) : Buf (Elt F) ((c : Thread nD τ).loc main_v2_1) := (dats m 0 c).arrAt 5 cfg0.N

/-- Core `c`'s buffers when the region is left: the two result columns at what the region wrote, every other buffer as
    the region found it. -/
def Wx (c : Dev nD) : Valuation τ sig (Elt F) :=
  Function.update (Function.update (V0 m c) (Proc.devRef .tc main_v2_0) (contribArr m c)) (Proc.devRef .tc main_v2_1) (flagArr m c)

/-- and after the seven host lines that follow. -/
def Wf (c : Dev nD) : Valuation τ sig (Elt F) := StableHlo.after (List.flatten [hostOps1]) (Wx m c)

theorem Wx_of_ne (c : Dev nD) (b : Ref sig .tc) (h4 : b ≠ main_v2_0) (h5 : b ≠ main_v2_1) :
    Wx m c (Proc.devRef .tc b) = V m c b := by
  unfold Wx
  rw [Function.update_of_ne (fun e => h5 (Proc.devRef_injective _ e)), Function.update_of_ne (fun e => h4 (Proc.devRef_injective _ e))]

theorem Wx_contrib (c : Dev nD) : Wx m c (Proc.devRef .tc main_v2_0) = contribArr m c := by
  unfold Wx
  rw [Function.update_of_ne (fun e => absurd (Proc.devRef_injective _ e) (by decide)), Function.update_self]

theorem Wx_flag (c : Dev nD) : Wx m c (Proc.devRef .tc main_v2_1) = flagArr m c := by
  unfold Wx
  rw [Function.update_self]

/-- Every window's array, as the region leaves it, is what `Wx` holds behind it: an input window's array is unchanged. -/
theorem Wx_arr (c : Dev nD) (w : Fin cfg0.W) : (dats m 0 c).arrAt w cfg0.N = Wx m c (Proc.devRef .tc (Pipeline.arrRef spec0 w)) := by
  match w with
  | ⟨0, _⟩ => exact ((dats m 0 c).arrAt_in 0 rfl _).trans ((A_eq m c 0).trans (Wx_of_ne m c main_arg0 (by decide) (by decide)).symm)
  | ⟨1, _⟩ => exact ((dats m 0 c).arrAt_in 1 rfl _).trans ((A_eq m c 1).trans (Wx_of_ne m c main_arg0 (by decide) (by decide)).symm)
  | ⟨2, _⟩ => exact ((dats m 0 c).arrAt_in 2 rfl _).trans ((A_eq m c 2).trans (Wx_of_ne m c main_v0 (by decide) (by decide)).symm)
  | ⟨3, _⟩ => exact ((dats m 0 c).arrAt_in 3 rfl _).trans ((A_eq m c 3).trans (Wx_of_ne m c main_v1 (by decide) (by decide)).symm)
  | ⟨4, _⟩ => exact (Wx_contrib m c).symm
  | ⟨5, _⟩ => exact (Wx_flag m c).symm

/-- No host line after the region writes an array of the pipeline. -/
theorem hostOps1_keeps (w : Fin cfg0.W) : ∀ op ∈ (List.flatten [hostOps1] : List (HloOp τ sig (Elt F))),
    Proc.devRef .tc (Pipeline.arrRef spec0 w) ∉ op.writes := by
  intro op hop
  simp only [hostOps1, List.flatten_cons, List.flatten_nil, List.append_nil, List.mem_cons, List.mem_nil_iff, or_false] at hop
  rcases hop with rfl | rfl | rfl | rfl | rfl | rfl | rfl <;>
    (fin_cases w <;> simp only [StableHlo.nullary_writes, StableHlo.binary_writes, Finset.mem_singleton] <;>
      exact StableHlo.devRef_ne_of_ne (by decide))

theorem Wf_arr (c : Dev nD) (w : Fin cfg0.W) : (dats m 0 c).arrAt w cfg0.N = Wf m c (Proc.devRef .tc (Pipeline.arrRef spec0 w)) := by
  unfold Wf
  rw [StableHlo.after_of_forall_not_mem _ _ (hostOps1_keeps w)]
  exact Wx_arr m c w

/-- Neither do they write an argument. -/
theorem Wf_main_arg1 (c : Dev nD) : Wf m c (Proc.devRef .tc main_arg1) = m ((c : Thread nD τ).loc main_arg1) := by
  unfold Wf
  rw [StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.binary_writes, Finset.mem_singleton]
    repeat' apply And.intro
    all_goals exact StableHlo.devRef_ne_of_ne (by decide))), Wx_of_ne m c main_arg1 (by decide) (by decide)]
  exact V_main_arg1 m c

/-! ## The host lines after the region -/

/-- The bypassing buffers hold the same when the region is left as when it was entered: none is a result column. -/
theorem rest_V_eq_Wx (c : Dev nD) :
    (Pipeline.unscopedRest (Ix := Unit) (Name := ℕ) (U := UR sig nD τ) (Lvl := ℕ) spec0 c (V m c) : sProp 𝕄)
      = Pipeline.unscopedRest spec0 c (fun b => Wx m c (Proc.devRef .tc b)) := by
  unfold Pipeline.unscopedRest
  exact bigSep_congr fun b hb => by
    dsimp only
    rw [Wx_of_ne m c b
      (fun e => (Finset.mem_sdiff.mp hb).2 (Finset.mem_image.mpr ⟨4, Finset.mem_univ _, by rw [e]⟩))
      (fun e => (Finset.mem_sdiff.mp hb).2 (Finset.mem_image.mpr ⟨5, Finset.mem_univ _, by rw [e]⟩))]

set_option backward.isDefEq.respectTransparency.types false in
/-- From the region's exit — the arrays at what the region left, the bypassing buffers as it found them — the seven
    host lines run over every unscoped buffer whole (the embedding table's halves joined) and hand back the arrays
    unchanged and the bypassing buffers at what the lines leave. -/
theorem tail (c : Dev nD) (Q' : PUnit → sProp 𝕄) :
    iprop((iprop((dats m 0 c).arrays ((dats m 0 c).arrAt · cfg0.N)
              ∗ Pipeline.unscopedRest (Ix := Unit) (Name := ℕ) (U := UR sig nD τ) (Lvl := ℕ) spec0 c (fun b => Wf m c (Proc.devRef .tc b))) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c : Thread nD τ) none) Set.univ
          (Pipeline.chain [StableHlo.seq hostOps1]) Q' := by
  have hin : iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (Wx m c) : sProp 𝕄) := by
    rw [← Pipeline.unscopedBufs_held (Ix := Unit) (Name := ℕ) (U := UR sig nD τ) (Lvl := ℕ) c (Wx m c),
      Pipeline.unscopedBufs_split₀ cfgs (0 : Fin 1) winFacts₀0.arr_unscoped c, rest_V_eq_Wx]
    exact sep_mono (arrays_iff_bufs m c _ _ (Wx_arr m c)).2 .rfl
  have hout : (StableHlo.held (c : Thread nD τ) (Pipeline.ucRefs τ sig) (Wf m c) : sProp 𝕄)
      ⊢ iprop((dats m 0 c).arrays ((dats m 0 c).arrAt · cfg0.N)
        ∗ Pipeline.unscopedRest (Ix := Unit) (Name := ℕ) (U := UR sig nD τ) (Lvl := ℕ) spec0 c (fun b => Wf m c (Proc.devRef .tc b))) := by
    rw [← Pipeline.unscopedBufs_held (Ix := Unit) (Name := ℕ) (U := UR sig nD τ) (Lvl := ℕ) c (Wf m c),
      Pipeline.unscopedBufs_split₀ cfgs (0 : Fin 1) winFacts₀0.arr_unscoped c]
    exact sep_mono (arrays_iff_bufs m c _ _ (Wf_arr m c)).1 .rfl
  rw [show ([StableHlo.seq hostOps1] : List (Prog (TpuEff nD τ sig (Elt F) (Pipeline.Sig Λ₀ (Fin 1) fun p => (pcfgs (F := F) p).Adm) .tc) PUnit))
      = ([hostOps1] : List (List (HloOp τ sig (Elt F)))).map StableHlo.seq ++ [] from rfl]
  iintro ⟨Hk, Hb, Ha, HZ⟩
  ihave Hh := hin $$ [Ha HZ]
  · isplitl [Ha] <;> iassumption
  iapply (Pipeline.wp_seqs_then (pcfgs (F := F)) defs₀ Variants.none c (Pipeline.ucRefs τ sig) [] [hostOps1]
    (fun ops hops op hop => by
      simp only [List.mem_cons, List.mem_nil_iff, or_false] at hops
      subst hops
      exact Pipeline.sub_ucRefs op ((List.forall_iff_forall_mem.mp hostOps1_sub) op hop))
    (fun ops hops op hop => by
      simp only [List.mem_cons, List.mem_nil_iff, or_false] at hops
      subst hops
      exact (List.forall_iff_forall_mem.mp hostOps1_fresh) op hop)
    (Wx m c)) $$ [Hb Hh]
  · isplitl [Hb] <;> iassumption
  iintro ⟨Hb, Hh⟩
  rw [Pipeline.chain_nil, wp_pure]
  imodintro
  iapply Hk
  iapply hout
  iexact Hh

/-! ## The run -/

/-- What every final state satisfies: the result at what the host lines compute from the two columns the region wrote, the
    arguments as launched. -/
def Post (r : PUnit × MemSt nD τ sig (Elt F)) : Prop := ∀ c : Dev nD,
  r.2.mem ((c.tc : Thread nD τ).loc main_v6) = Wf m c (Proc.devRef .tc main_v6)
  ∧ r.2.mem ((c.tc : Thread nD τ).loc main_arg0) = m ((c.tc : Thread nD τ).loc main_arg0)
  ∧ r.2.mem ((c.tc : Thread nD τ).loc main_arg1) = m ((c.tc : Thread nD τ).loc main_arg1)

set_option backward.isDefEq.respectTransparency.types false in
/-- At the compiled mesh, for any float values, from any memory with zero counters: every weakly fair execution of
    @main on the TensorCores terminates, nothing faulting, in a state satisfying `Post`. -/
theorem run_main : θ_run defs (onTc (τ := τ) (main (F := F))) ⟨m, fun _ => 0, ρ⟩ (Post m) := by
  classical
  exact Pipeline.θ_run_region_pf_tail (pcfgs (F := F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) (fun c => (body_obligation m c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays_iff_bufs m c (V m c) _ fun w => A_eq m c w).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wf m c (Proc.devRef .tc b)))
    (hX := fun c => by
      iintro ⟨HU, -, -, -, Hp, -⟩; imodintro
      isplitl [Hp]; · iexists _; iexact Hp
      iexact HU)
    (hin := fun c => by
      rw [show (dats m 0 c).Φ 0 = Pipeline.ΦA spec0 c from rfl]
      unfold Pipeline.ΦA; iintro ⟨Hp, Ht, Hr⟩
      isplitl [Hr] <;> iassumption)
    (hout := fun c => by
      rw [show (dats m 0 c).Φ (Fin.last cfg0.N) = Pipeline.ΦA spec0 c from rfl, Pipeline.ownSems0_none]; unfold Pipeline.ΦA
      iintro ⟨Hr, Hp⟩
      isplitl [Hp]; · iexact Hp
      isplitr; · iempintro
      iexact Hr)
    (htail := fun c Q' => by
      rw [Pipeline.unscopedRestP_none, Pipeline.unscopedRestP_none]
      exact tail m c Q')
    (QY := fun c s => ∀ b ∈ Pipeline.restRefsP sig Pipeline.Prefetch.none spec0, s.mem ((c.tc : Thread nD τ).loc b) = Wf m c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wf m c (Proc.devRef .tc b)) s')
      isplitl [HU] <;> iassumption)
    (hQ := fun s h c => by
      have hr := Pipeline.rest_of_restP Pipeline.Prefetch.none spec0 (fun k => k.elim0) c (fun b => Wf m c (Proc.devRef .tc b)) s
        (fun k => k.elim0) (h c).2.1 (h c).2.2
      refine ⟨hr main_v6 (Pipeline.mem_restRefs_of main_v6 (by decide) (by decide)), ?_,
        (hr main_arg1 (Pipeline.mem_restRefs_of main_arg1 (by decide) (by decide))).trans (Wf_main_arg1 m c)⟩
      exact ((h c).1 0).trans (((dats m 0 c).arrAt_in 0 rfl _).trans ((A_eq m c 0).trans (V_main_arg0 m c))))

end Cert.KernelIdeal.Body

end
-- ==== Proof.Spec.lean ====
/-
  The multi-similarity loss as one function of the embedding matrix and the label vector, on the
  extended reals, written twice: with the per-row validity test the way the kernel decides it (through
  the mined extremes and the exponential sums) and the way the reference decides it (through the
  existence of a pair in each mask).  Rows and columns are the 4096 samples, the inner axis the 128
  features.
-/
import Mathlib
import Idealize.ShloMosaic.PureOps.Ideal

noncomputable section

namespace Cert.MultiSim

open Idealize.ShloMosaic
open scoped Classical

/-- The float words the two programs share, read on the extended reals (never evaluated: the same word
    stands on both sides). -/
abbrev wTenth : EReal := Ideal.ofBits .f32 0x3DCCCCCD#32
abbrev wHalf : EReal := Ideal.ofBits .f32 0x3F000000#32
abbrev wNegOne : EReal := Ideal.ofBits .f32 0xBF800000#32
abbrev wTen : EReal := Ideal.ofBits .f32 0x41200000#32
abbrev wOne : EReal := Ideal.ofBits .f32 0x3F800000#32

variable (E : Fin 4096 → Fin 128 → EReal) (L : Fin 4096 → BitVec 32)

/-- The similarity of samples `p` and `f`: the inner product of their embeddings. -/
def sim (p f : Fin 4096) : EReal := ∑ d : Fin 128, E p d * E f d

/-- `f` is a positive for the anchor `p`: the same label, another sample. -/
def posM (p f : Fin 4096) : Prop := L p = L f ∧ p ≠ f

/-- `f` is a negative for the anchor `p`: another label (hence another sample). -/
def negM (p f : Fin 4096) : Prop := ¬ L p = L f ∧ p ≠ f

/-- The largest similarity of `p` to a negative (`⊥` when there is none). -/
def negMax (p : Fin 4096) : EReal := ⨆ f : Fin 4096, if negM L p f then sim E p f else ⊥

/-- The smallest similarity of `p` to a positive (`⊤` when there is none). -/
def posMin (p : Fin 4096) : EReal := ⨅ f : Fin 4096, if posM L p f then sim E p f else ⊤

/-- A hard positive: a positive less similar than the hardest negative plus the margin word. -/
def hardPos (p f : Fin 4096) : Prop := posM L p f ∧ sim E p f < negMax E L p + wTenth

/-- A hard negative: a negative more similar than the hardest positive minus the margin word. -/
def hardNeg (p f : Fin 4096) : Prop := negM L p f ∧ posMin E L p - wTenth < sim E p f

/-- The exponential sums over the hard positives and the hard negatives of an anchor. -/
def posSum (p : Fin 4096) : EReal :=
  ∑ f : Fin 4096, if hardPos E L p f then Ideal.exp (wNegOne * (sim E p f - wHalf)) else 0
def negSum (p : Fin 4096) : EReal :=
  ∑ f : Fin 4096, if hardNeg E L p f then Ideal.exp (wTen * (sim E p f - wHalf)) else 0

/-- An anchor's loss term. -/
def term (p : Fin 4096) : EReal :=
  wOne * Ideal.log1p (posSum E L p) + wTenth * Ideal.log1p (negSum E L p)

/-- The anchor counts, decided through the mined extremes and the sums (the kernel's test). -/
def validK (p : Fin 4096) : Prop :=
  ((posMin E L p < ⊤ ∧ ⊥ < negMax E L p) ∧ 0 < posSum E L p) ∧ 0 < negSum E L p

/-- The anchor counts, decided through the masks (the reference's test). -/
def validR (p : Fin 4096) : Prop :=
  (((∃ f, posM L p f) ∧ (∃ f, negM L p f)) ∧ (∃ f, hardPos E L p f)) ∧ (∃ f, hardNeg E L p f)

/-- One anchor's contribution and its count as an extended real, under the kernel's test. -/
def contribK (p : Fin 4096) : EReal := if validK E L p then term E L p else 0
def countK (p : Fin 4096) : EReal := if validK E L p then 1 else 0

/-- The loss with the kernel's test: the counts are summed as extended reals. -/
def lossK : EReal := Ideal.div (∑ p : Fin 4096, contribK E L p) (max (∑ p : Fin 4096, countK E L p) 1)

/-- The loss with the reference's test: the valid anchors are counted as a natural number. -/
def lossR : EReal :=
  Ideal.div (∑ p : Fin 4096, if validR E L p then term E L p else 0)
    (((max (Finset.univ.filter fun p : Fin 4096 => validR E L p).card 1 : ℕ) : ℝ) : EReal)

end Cert.MultiSim

end
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.RowValueSim.lean ====
/-
  The block of similarities a grid point works on, read at an index.

  Grid point i holds the 128 anchor samples 128·i, …, 128·i + 127 (its block of rows) against all 4096 samples.  The
  product of the anchors' embeddings with all embeddings, each contracted over the 128 features, is at (r, f) the
  inner product of sample 128·i + r with sample f: the similarity of the specification.  The shifted block subtracts
  the centre word from every entry.
-/
import proofs.«142021_j72481868087461_2_alg».proof.Proof.Gen.KernelIdeal.Skeleton
import proofs.«142021_j72481868087461_2_alg».proof.Proof.Spec
import proofs.«142021_j72481868087461_2_alg».proof.Proof.LibRowDots
import Idealize.ShloMosaic.Lib.ValueIdx

noncomputable section

namespace Cert.KernelIdeal.RowValue

open Cert.KernelIdeal Cert.KernelIdeal.Gen Idealize.ShloMosaic Idealize.ShloMosaic.ValueIdx Cert.MultiSim

/-- The sample that row r of grid point i's block stands for: 128·i + r. -/
def row (i : grid0.Coords) (r : Fin 128) : Fin 4096 :=
  ⟨128 * (i 0).val + r.val, by
    have hi : (i 0).val < 32 := (i 0).isLt
    have hr := r.isLt
    omega⟩

theorem row_val (i : grid0.Coords) (r : Fin 128) : (row i r).val = 128 * (i 0).val + r.val := rfl

variable (E : Fin 4096 → Fin 128 → EReal)

/-- The product block at (r, f) is the similarity of the anchor sample to sample f. -/
theorem pay1_apply (i : grid0.Coords) (v0 : Vec Ideal S128x128 .f32) (v1 : Vec Ideal S4096x128 .f32)
    (h0 : ∀ (r : Fin 128) (d : Fin 128), v0 (ix2 r d) = E (row i r) d)
    (h1 : ∀ (f : Fin 4096) (d : Fin 128), v1 (ix2 f d) = E f d) (r : Fin 128) (f : Fin 4096) :
    k0_pay1 (F := Ideal) v0 v1 (ix2 r f) = sim E (row i r) f := by
  unfold k0_pay1
  refine (LibRowDots.matmul_rows Facts₀.dot_S128x128_S4096x128_S128x4096_1_1_0_0_n_n_wf
    dot_S128x128_S4096x128_S128x4096_1_1_0_0_n_n rfl none v0 v1 r f).trans ?_
  unfold sim
  exact Finset.sum_congr rfl fun d _ => by rw [h0, h1]

/-- The shifted block at (r, f) is that similarity minus the centre word. -/
theorem pay10_apply (i : grid0.Coords) (v0 : Vec Ideal S128x128 .f32) (v1 : Vec Ideal S4096x128 .f32)
    (h0 : ∀ (r : Fin 128) (d : Fin 128), v0 (ix2 r d) = E (row i r) d)
    (h1 : ∀ (f : Fin 4096) (d : Fin 128), v1 (ix2 f d) = E f d) (r : Fin 128) (f : Fin 4096) :
    k0_pay10 (F := Ideal) v0 v1 (ix2 r f) = sim E (row i r) f - wHalf := by
  unfold k0_pay10
  show k0_pay1 (F := Ideal) v0 v1 (ix2 r f) - Ideal.ofBits .f32 0x3F000000#32 = _
  rw [pay1_apply E i v0 v1 h0 h1]

end Cert.KernelIdeal.RowValue

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.RowValueMask.lean ====
/-
  The pair masks of a grid point's block, read at an index.

  The label test compares the anchor's label (a column spread over the 4096 columns) with sample f's label (a row
  spread over the 128 rows).  The "another sample" test compares the sample numbers: the anchor's number is the word
  128·i + r, which does not wrap (it is below 4096), so the comparison of the two 32-bit words is the comparison of the
  numbers.  Their conjunctions are the positive and the negative mask of the specification.  Every mask is given in the
  form "the bit 1 if the condition holds, else the bit 0".
-/
import proofs.«142021_j72481868087461_2_alg».proof.Proof.RowValueSim
import proofs.«142021_j72481868087461_2_alg».proof.Proof.LibKeepdims
import Idealize.ShloMosaic.Lib.Pipeline.Value
import Idealize.ShloMosaic.Lib.ValueLayout

noncomputable section

namespace Cert.KernelIdeal.RowValue

open Cert.KernelIdeal Cert.KernelIdeal.Gen Idealize.ShloMosaic Idealize.ShloMosaic.ValueIdx Cert.MultiSim
open scoped Classical

/-! ## One-bit words -/

/-- An equality test of two words is the bit of their equality. -/
theorem cmpi_eq_ite {w : Nat} (x y : BitVec w) : IntOp.cmpi .eq x y = if x = y then 1#1 else 0#1 := by
  show BitVec.ofBool (x == y) = _
  by_cases h : x = y
  · rw [if_pos h, beq_iff_eq.mpr h]; rfl
  · rw [if_neg h, beq_eq_false_iff_ne.mpr h]; rfl

/-- A disequality test of two words is the bit of their disequality. -/
theorem cmpi_ne_ite {w : Nat} (x y : BitVec w) : IntOp.cmpi .ne x y = if x ≠ y then 1#1 else 0#1 := by
  show BitVec.ofBool (x != y) = _
  by_cases h : x = y
  · rw [if_neg (not_not.mpr h), bne_eq_false_iff_eq.mpr h]; rfl
  · rw [if_pos h, bne_iff_ne.mpr h]; rfl

/-- The conjunction of two condition bits is the bit of any condition equivalent to the conjunction (whatever the
    decision procedures the three conditions carry). -/
theorem andi_ite (P Q R : Prop) [Decidable P] [Decidable Q] [Decidable R] (h : R ↔ P ∧ Q) :
    IntOp.andi (if P then 1#1 else 0#1) (if Q then 1#1 else 0#1) = if R then 1#1 else 0#1 := by
  by_cases hp : P <;> by_cases hq : Q <;> simp [hp, hq, h, IntOp.andi]

/-- A condition bit flipped against the set bit is the bit of the negation. -/
theorem xori_one_ite (P : Prop) [Decidable P] : IntOp.xori (if P then 1#1 else 0#1) 1#1 = if ¬ P then 1#1 else 0#1 := by
  by_cases hp : P <;> simp [hp, IntOp.xori]

/-- A select on a condition bit is the choice on the condition. -/
theorem select_ite {α : Type} (P : Prop) [Decidable P] (a b : α) :
    Scalar.select (if P then 1#1 else 0#1) a b = if P then a else b := by
  by_cases hp : P <;> simp [hp, Scalar.select]

/-- The ordered "less than" test on the extended reals is the bit of the order. -/
theorem cmp_olt_ite (x y : EReal) [Decidable (x < y)] : Ideal.cmp .olt x y = if x < y then 1#1 else 0#1 := by
  by_cases h : x < y
  · rw [if_pos h]; simp [Ideal.cmp, h]
  · rw [if_neg h]; simp [Ideal.cmp, h]

/-- The ordered "greater than" test on the extended reals is the bit of the reversed order. -/
theorem cmp_ogt_ite (x y : EReal) [Decidable (y < x)] : Ideal.cmp .ogt x y = if y < x then 1#1 else 0#1 := by
  by_cases h : y < x
  · rw [if_pos h]; simp [Ideal.cmp, h]
  · rw [if_neg h]; simp [Ideal.cmp, h]

/-! ## The sample number as a word -/

/-- The word 128·g + r of a block row, g below 32, differs from the word of a sample number f exactly when the numbers
    differ: nothing wraps below 4096. -/
theorem rowWord_ne (g : Nat) (hg : g < 32) (r : Fin 128) (f : Fin 4096) :
    (IntOp.addi (Scalar.muli (BitVec.ofNat 32 g) 128#32) (BitVec.ofNat 32 (0 * 128 + r.val)) ≠ BitVec.ofNat 32 (0 * 4096 + f.val))
      ↔ 128 * g + r.val ≠ f.val := by
  rw [Ne, Ne, ← BitVec.toNat_inj]
  simp only [Scalar.muli, IntOp.addi, IntOp.muli, BitVec.toNat_add, BitVec.toNat_mul, BitVec.toNat_ofNat]
  have := r.isLt
  have := f.isLt
  omega

variable (L : Fin 4096 → BitVec 32)

/-! ## The masks -/

/-- The label test at (r, f): the anchor's label equals sample f's. -/
theorem pay2_apply (i : grid0.Coords) (v3 : Vec Ideal S128x1 .i32) (v5 : Vec Ideal S1x4096 .i32)
    (h3 : ∀ r : Fin 128, v3 (ix2 r (0 : Fin 1)) = L (row i r)) (h5 : ∀ f : Fin 4096, v5 (ix2 (0 : Fin 1) f) = L f)
    (r : Fin 128) (f : Fin 4096) :
    k0_pay2 (F := Ideal) v3 v5 (ix2 r f) = if L (row i r) = L f then 1#1 else 0#1 := by
  unfold k0_pay2
  show IntOp.cmpi .eq (broadcastTo S128x4096 (shapeCast S128x1 v3 Facts₀.shapeCasts_S128x1_S128x1) Facts₀.broadcasts_S128x1_S128x4096 (ix2 r f))
      (broadcastTo S128x4096 (shapeCast S1x4096 v5 Facts₀.shapeCasts_S1x4096_S1x4096) Facts₀.broadcasts_S1x4096_S128x4096 (ix2 r f)) = _
  rw [shapeCast_self, shapeCast_self, LibKeepdims.broadcastTo_a1_ab_apply, broadcastTo_1b_ab_apply, h3, h5, cmpi_eq_ite]

/-- The "another sample" test at (r, f): the anchor is not sample f. -/
theorem pay3_apply (i : grid0.Coords) (r : Fin 128) (f : Fin 4096) :
    k0_pay3 i (ix2 r f) = if row i r ≠ f then 1#1 else 0#1 := by
  unfold k0_pay3
  show IntOp.cmpi .ne
      (broadcastTo S128x4096 (addi (broadcast S128x1 (Scalar.muli (BitVec.ofNat 32 (i 0).val) 128#32))
        (iota .tc S128x1 32 [0] Facts₀.iota_S128x1_d0_w32)) Facts₀.broadcasts_S128x1_S128x4096 (ix2 r f))
      (broadcastTo S128x4096 (iota .tc S1x4096 32 [1] Facts₀.iota_S1x4096_d1_w32) Facts₀.broadcasts_S1x4096_S128x4096 (ix2 r f)) = _
  rw [LibKeepdims.broadcastTo_a1_ab_apply, broadcastTo_1b_ab_apply, cmpi_ne_ite]
  show (if IntOp.addi (Scalar.muli (BitVec.ofNat 32 (i 0).val) 128#32) (BitVec.ofNat 32 (0 * 128 + r.val))
      ≠ BitVec.ofNat 32 (0 * 4096 + f.val) then 1#1 else 0#1) = _
  have hi : (i 0).val < 32 := (i 0).isLt
  have hw := rowWord_ne (i 0).val hi r f
  have hf : row i r ≠ f ↔ 128 * (i 0).val + r.val ≠ f.val := by
    rw [Ne, Ne, Fin.ext_iff, row_val]
  by_cases h : row i r ≠ f
  · rw [if_pos h, if_pos (hw.mpr (hf.mp h))]
  · rw [if_neg h, if_neg (fun hh => h (hf.mpr (hw.mp hh)))]

/-- The positive mask at (r, f): the same label, another sample. -/
theorem pay4_apply (i : grid0.Coords) (v3 : Vec Ideal S128x1 .i32) (v5 : Vec Ideal S1x4096 .i32)
    (h3 : ∀ r : Fin 128, v3 (ix2 r (0 : Fin 1)) = L (row i r)) (h5 : ∀ f : Fin 4096, v5 (ix2 (0 : Fin 1) f) = L f)
    (r : Fin 128) (f : Fin 4096) :
    k0_pay4 (F := Ideal) i v3 v5 (ix2 r f) = if posM L (row i r) f then 1#1 else 0#1 := by
  unfold k0_pay4
  show IntOp.andi (k0_pay2 (F := Ideal) v3 v5 (ix2 r f)) (k0_pay3 i (ix2 r f)) = _
  rw [pay2_apply L i v3 v5 h3 h5, pay3_apply]
  exact andi_ite _ _ _ Iff.rfl

/-- The negative mask at (r, f): another label, another sample. -/
theorem pay5_apply (i : grid0.Coords) (v3 : Vec Ideal S128x1 .i32) (v5 : Vec Ideal S1x4096 .i32)
    (h3 : ∀ r : Fin 128, v3 (ix2 r (0 : Fin 1)) = L (row i r)) (h5 : ∀ f : Fin 4096, v5 (ix2 (0 : Fin 1) f) = L f)
    (r : Fin 128) (f : Fin 4096) :
    k0_pay5 (F := Ideal) i v3 v5 (ix2 r f) = if negM L (row i r) f then 1#1 else 0#1 := by
  unfold k0_pay5
  show IntOp.andi (IntOp.xori (k0_pay2 (F := Ideal) v3 v5 (ix2 r f)) 1#1) (k0_pay3 i (ix2 r f)) = _
  rw [pay2_apply L i v3 v5 h3 h5, pay3_apply, xori_one_ite]
  exact andi_ite _ _ _ Iff.rfl

end Cert.KernelIdeal.RowValue

end
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«142021_j72481868087461_2_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«142021_j72481868087461_2_alg».proof.Proof.LibKeepdims
import proofs.«142021_j72481868087461_2_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.RowValueExtreme.lean ====
/-
  The mined extremes of a grid point's block.

  Against the -∞ word outside the negative mask, the row maximum of the similarities is the supremum over the negatives
  of the anchor (⊥ when there is none); against the +∞ word outside the positive mask, the row minimum is the infimum
  over its positives (⊤ when there is none).  Both are kept as columns.
-/
import proofs.«142021_j72481868087461_2_alg».proof.Proof.RowValueMask
import proofs.«142021_j72481868087461_2_alg».proof.Proof.LibRowReduce

noncomputable section

namespace Cert.KernelIdeal.RowValue

open Cert.KernelIdeal Cert.KernelIdeal.Gen Idealize.ShloMosaic Idealize.ShloMosaic.ValueIdx Cert.MultiSim
open scoped Classical

/-- A lane minimum along the rows of an [a, b] array, from the +∞ word, at row p: the infimum of the row. -/
theorem rowMin_apply {a b : Nat} (src : FVec Ideal ⟨2, ![a, b]⟩ .f32) (h : (⟨2, ![a, b]⟩ : Shape).Reduces [1] ⟨1, ![a]⟩) (p : Fin a) :
    multiReduction .minimumf [1] ⟨1, ![a]⟩ src 0x7F800000#32 h (.inl rfl) rfl (ix1 p) = ⨅ q : Fin b, src (ix2 p q) :=
  (ExtremeReduce.multiReduction_min_single src h (.inl rfl) rfl (ix1 p)).trans
    (iInf_congr fun k => congrArg src (LibRowReduce.lift_row h p k))

variable (E : Fin 4096 → Fin 128 → EReal) (L : Fin 4096 → BitVec 32)

/-- The column of row maxima at row r: the largest similarity of the anchor to a negative. -/
theorem pay6_apply (i : grid0.Coords) (v0 : Vec Ideal S128x128 .f32) (v1 : Vec Ideal S4096x128 .f32)
    (v3 : Vec Ideal S128x1 .i32) (v5 : Vec Ideal S1x4096 .i32)
    (h0 : ∀ (r : Fin 128) (d : Fin 128), v0 (ix2 r d) = E (row i r) d)
    (h1 : ∀ (f : Fin 4096) (d : Fin 128), v1 (ix2 f d) = E f d)
    (h3 : ∀ r : Fin 128, v3 (ix2 r (0 : Fin 1)) = L (row i r)) (h5 : ∀ f : Fin 4096, v5 (ix2 (0 : Fin 1) f) = L f)
    (r : Fin 128) :
    k0_pay6 (F := Ideal) i v0 v1 v3 v5 (ix2 r (0 : Fin 1)) = negMax E L (row i r) := by
  unfold k0_pay6
  refine (LibKeepdims.shapeCast_a_a1_apply _ Facts₀.shapeCasts_S128_S128x1 r 0).trans ?_
  refine (LibRowReduce.rowMax_apply _ Facts₀.reduces_S128x4096_S128 r).trans ?_
  unfold negMax
  refine iSup_congr fun f => ?_
  show Scalar.select (k0_pay5 (F := Ideal) i v3 v5 (ix2 r f)) (k0_pay1 (F := Ideal) v0 v1 (ix2 r f))
      (Ideal.ofBits .f32 0xFF800000#32) = _
  rw [pay5_apply L i v3 v5 h3 h5, pay1_apply E i v0 v1 h0 h1, select_ite, ExtremeReduce.ofBits_negInf]

/-- The column of row minima at row r: the smallest similarity of the anchor to a positive. -/
theorem pay7_apply (i : grid0.Coords) (v0 : Vec Ideal S128x128 .f32) (v1 : Vec Ideal S4096x128 .f32)
    (v3 : Vec Ideal S128x1 .i32) (v5 : Vec Ideal S1x4096 .i32)
    (h0 : ∀ (r : Fin 128) (d : Fin 128), v0 (ix2 r d) = E (row i r) d)
    (h1 : ∀ (f : Fin 4096) (d : Fin 128), v1 (ix2 f d) = E f d)
    (h3 : ∀ r : Fin 128, v3 (ix2 r (0 : Fin 1)) = L (row i r)) (h5 : ∀ f : Fin 4096, v5 (ix2 (0 : Fin 1) f) = L f)
    (r : Fin 128) :
    k0_pay7 (F := Ideal) i v0 v1 v3 v5 (ix2 r (0 : Fin 1)) = posMin E L (row i r) := by
  unfold k0_pay7
  refine (LibKeepdims.shapeCast_a_a1_apply _ Facts₀.shapeCasts_S128_S128x1 r 0).trans ?_
  refine (rowMin_apply _ Facts₀.reduces_S128x4096_S128 r).trans ?_
  unfold posMin
  refine iInf_congr fun f => ?_
  show Scalar.select (k0_pay4 (F := Ideal) i v3 v5 (ix2 r f)) (k0_pay1 (F := Ideal) v0 v1 (ix2 r f))
      (Ideal.ofBits .f32 0x7F800000#32) = _
  rw [pay4_apply L i v3 v5 h3 h5, pay1_apply E i v0 v1 h0 h1, select_ite, ExtremeReduce.ofBits_posInf]

end Cert.KernelIdeal.RowValue

end
-- ==== Proof.RowValueHard.lean ====
/-
  The hard masks of a grid point's block, read at an index.

  The column of mined maxima plus the margin word, spread back over the columns, is compared with the similarities:
  a positive is hard when its similarity is below the hardest negative's plus the margin; a negative is hard when its
  similarity is above the hardest positive's minus the margin.  These are the hard masks of the specification.
-/
import proofs.«142021_j72481868087461_2_alg».proof.Proof.RowValueExtreme
import Idealize.ShloMosaic.PureOps.Ideal.Laws

noncomputable section

namespace Cert.KernelIdeal.RowValue

open Cert.KernelIdeal Cert.KernelIdeal.Gen Idealize.ShloMosaic Idealize.ShloMosaic.ValueIdx Cert.MultiSim
open scoped Classical

/-- A lane-wise conjunction at an index is the conjunction of the two bits there. -/
theorem andi_apply {s : Shape} {w : Nat} (x y : IVec s w) (j : s.Idx) : andi x y j = IntOp.andi (x j) (y j) := rfl

/-- The hard-positive mask as one expression of the earlier blocks. -/
theorem pay8_eq (i : grid0.Coords) (v0 : Vec Ideal S128x128 .f32) (v1 : Vec Ideal S4096x128 .f32)
    (v3 : Vec Ideal S128x1 .i32) (v5 : Vec Ideal S1x4096 .i32) :
    k0_pay8 (F := Ideal) i v0 v1 v3 v5
      = andi (k0_pay4 i v3 v5) (cmpf .olt (k0_pay1 v0 v1)
          (broadcastTo S128x4096 (addf (k0_pay6 i v0 v1 v3 v5) (broadcast S128x1 (Scalar.ofBits .f32 0x3DCCCCCD#32)))
            Facts₀.broadcasts_S128x1_S128x4096)) := rfl

/-- The hard-negative mask as one expression of the earlier blocks. -/
theorem pay9_eq (i : grid0.Coords) (v0 : Vec Ideal S128x128 .f32) (v1 : Vec Ideal S4096x128 .f32)
    (v3 : Vec Ideal S128x1 .i32) (v5 : Vec Ideal S1x4096 .i32) :
    k0_pay9 (F := Ideal) i v0 v1 v3 v5
      = andi (k0_pay5 i v3 v5) (cmpf .ogt (k0_pay1 v0 v1)
          (broadcastTo S128x4096 (subf (k0_pay7 i v0 v1 v3 v5) (broadcast S128x1 (Scalar.ofBits .f32 0x3DCCCCCD#32)))
            Facts₀.broadcasts_S128x1_S128x4096)) := rfl

variable (E : Fin 4096 → Fin 128 → EReal) (L : Fin 4096 → BitVec 32)

/-- The hard-positive mask at (r, f). -/
theorem pay8_apply (i : grid0.Coords) (v0 : Vec Ideal S128x128 .f32) (v1 : Vec Ideal S4096x128 .f32)
    (v3 : Vec Ideal S128x1 .i32) (v5 : Vec Ideal S1x4096 .i32)
    (h0 : ∀ (r : Fin 128) (d : Fin 128), v0 (ix2 r d) = E (row i r) d)
    (h1 : ∀ (f : Fin 4096) (d : Fin 128), v1 (ix2 f d) = E f d)
    (h3 : ∀ r : Fin 128, v3 (ix2 r (0 : Fin 1)) = L (row i r)) (h5 : ∀ f : Fin 4096, v5 (ix2 (0 : Fin 1) f) = L f)
    (r : Fin 128) (f : Fin 4096) :
    k0_pay8 (F := Ideal) i v0 v1 v3 v5 (ix2 r f) = if hardPos E L (row i r) f then 1#1 else 0#1 := by
  have hiff : hardPos E L (row i r) f
      ↔ posM L (row i r) f ∧ sim E (row i r) f < negMax E L (row i r) + wTenth := Iff.rfl
  rw [pay8_eq, andi_apply, cmpf_apply, LibKeepdims.broadcastTo_a1_ab_apply, addf_apply, broadcast_apply,
    pay4_apply L i v3 v5 h3 h5, pay1_apply E i v0 v1 h0 h1, pay6_apply E L i v0 v1 v3 v5 h0 h1 h3 h5,
    Ideal.cmpf_def, Ideal.ofBits_def, cmp_olt_ite]
  exact andi_ite _ _ _ hiff

/-- The hard-negative mask at (r, f). -/
theorem pay9_apply (i : grid0.Coords) (v0 : Vec Ideal S128x128 .f32) (v1 : Vec Ideal S4096x128 .f32)
    (v3 : Vec Ideal S128x1 .i32) (v5 : Vec Ideal S1x4096 .i32)
    (h0 : ∀ (r : Fin 128) (d : Fin 128), v0 (ix2 r d) = E (row i r) d)
    (h1 : ∀ (f : Fin 4096) (d : Fin 128), v1 (ix2 f d) = E f d)
    (h3 : ∀ r : Fin 128, v3 (ix2 r (0 : Fin 1)) = L (row i r)) (h5 : ∀ f : Fin 4096, v5 (ix2 (0 : Fin 1) f) = L f)
    (r : Fin 128) (f : Fin 4096) :
    k0_pay9 (F := Ideal) i v0 v1 v3 v5 (ix2 r f) = if hardNeg E L (row i r) f then 1#1 else 0#1 := by
  have hiff : hardNeg E L (row i r) f
      ↔ negM L (row i r) f ∧ posMin E L (row i r) - wTenth < sim E (row i r) f := Iff.rfl
  rw [pay9_eq, andi_apply, cmpf_apply, LibKeepdims.broadcastTo_a1_ab_apply, subf_apply, broadcast_apply,
    pay5_apply L i v3 v5 h3 h5, pay1_apply E i v0 v1 h0 h1, pay7_apply E L i v0 v1 v3 v5 h0 h1 h3 h5,
    Ideal.cmpf_def, Ideal.ofBits_def, cmp_ogt_ite]
  exact andi_ite _ _ _ hiff

end Cert.KernelIdeal.RowValue

end
-- ==== Proof.RowValueTail.lean ====
/-
  The second half of a grid point's work, read at a row, over abstract inputs.

  Given, at row r, the similarities s f, the two mined extremes, and the hard masks as condition bits, the two
  exponential sums are the sums over the columns of the masked exponentials (the other entries contribute the zero
  word, which is 0); the validity bit is the conjunction of four order tests, against the +∞ word (⊤), the -∞ word (⊥)
  and the zero word; the stored contribution is the loss term where the bit is set and 0 elsewhere; and the stored
  count is the bit widened to a 32-bit word and read as a signed integer: 1 or 0.
-/
import proofs.«142021_j72481868087461_2_alg».proof.Proof.RowValueMask
import proofs.«142021_j72481868087461_2_alg».proof.Proof.LibRowReduce
import Idealize.ShloMosaic.PureOps.Ideal.Laws

noncomputable section

namespace Cert.KernelIdeal.RowValue

open Cert.KernelIdeal Cert.KernelIdeal.Gen Idealize.ShloMosaic Idealize.ShloMosaic.ValueIdx Cert.MultiSim
open scoped Classical

/-- The exponential sum over the columns a mask HP keeps, at similarities s, with the positive side's scale. -/
def pSum (s : Fin 4096 → EReal) (HP : Fin 4096 → Prop) : EReal :=
  ∑ f : Fin 4096, if HP f then Ideal.exp (wNegOne * (s f - wHalf)) else 0

/-- The exponential sum over the columns a mask HN keeps, at similarities s, with the negative side's scale. -/
def nSum (s : Fin 4096 → EReal) (HN : Fin 4096 → Prop) : EReal :=
  ∑ f : Fin 4096, if HN f then Ideal.exp (wTen * (s f - wHalf)) else 0

/-- The four order tests of a row: a finite hardest positive, a hardest negative above -∞, two positive sums. -/
def valid (pmin nmax ps ns : EReal) : Prop := ((pmin < ⊤ ∧ ⊥ < nmax) ∧ 0 < ps) ∧ 0 < ns

/-- The set bit, widened to 32 bits and read as a signed integer, is the extended real 1. -/
theorem bit_one_real : ((((1#1 : BitVec 1).setWidth 32).toInt : ℝ) : EReal) = 1 := by
  have h : ((1#1 : BitVec 1).setWidth 32).toInt = 1 := by decide
  rw [h]; simp

/-- The clear bit, widened to 32 bits and read as a signed integer, is the extended real 0. -/
theorem bit_zero_real : ((((0#1 : BitVec 1).setWidth 32).toInt : ℝ) : EReal) = 0 := by
  have h : ((0#1 : BitVec 1).setWidth 32).toInt = 0 := by decide
  rw [h]; simp

variable (r : Fin 128) (s : Fin 4096 → EReal) (HP HN : Fin 4096 → Prop)

/-- The positive side's sum, kept as a column, at row r. -/
theorem pay11_apply (v33 : IVec S128x4096 1) (v40 : FVec Ideal S128x4096 .f32)
    (h33 : ∀ f : Fin 4096, v33 (ix2 r f) = if HP f then 1#1 else 0#1)
    (h40 : ∀ f : Fin 4096, v40 (ix2 r f) = s f - wHalf) :
    k0_pay11 (F := Ideal) v33 v40 (ix2 r (0 : Fin 1)) = pSum s HP := by
  unfold k0_pay11
  refine (LibKeepdims.shapeCast_a_a1_apply _ Facts₀.shapeCasts_S128_S128x1 r 0).trans ?_
  refine (LibRowReduce.rowSum_apply _ Facts₀.reduces_S128x4096_S128 r).trans ?_
  unfold pSum
  refine Finset.sum_congr rfl fun f _ => ?_
  show Scalar.select (v33 (ix2 r f)) (Ideal.exp (Ideal.ofBits .f32 0xBF800000#32 * v40 (ix2 r f)))
      (Ideal.ofBits .f32 0x00000000#32) = _
  rw [h33, h40, select_ite, Ideal.ofBits_zero_f32]

/-- The negative side's sum, kept as a column, at row r. -/
theorem pay12_apply (v2 : FVec Ideal S128x4096 .f32) (v38 : IVec S128x4096 1)
    (h2 : ∀ f : Fin 4096, v2 (ix2 r f) = s f)
    (h38 : ∀ f : Fin 4096, v38 (ix2 r f) = if HN f then 1#1 else 0#1) :
    k0_pay12 (F := Ideal) v2 v38 (ix2 r (0 : Fin 1)) = nSum s HN := by
  unfold k0_pay12
  refine (LibKeepdims.shapeCast_a_a1_apply _ Facts₀.shapeCasts_S128_S128x1 r 0).trans ?_
  refine (LibRowReduce.rowSum_apply _ Facts₀.reduces_S128x4096_S128 r).trans ?_
  unfold nSum
  refine Finset.sum_congr rfl fun f _ => ?_
  show Scalar.select (v38 (ix2 r f))
      (Ideal.exp (Ideal.ofBits .f32 0x41200000#32 * (v2 (ix2 r f) - Ideal.ofBits .f32 0x3F000000#32)))
      (Ideal.ofBits .f32 0x00000000#32) = _
  rw [h38, h2, select_ite, Ideal.ofBits_zero_f32]

variable (v2 : FVec Ideal S128x4096 .f32) (v26 v28 : FVec Ideal S128x1 .f32) (v33 v38 : IVec S128x4096 1)
  (v40 : FVec Ideal S128x4096 .f32) (nmax pmin : EReal)

/-- The validity bit at row r. -/
theorem pay13_apply (h2 : ∀ f : Fin 4096, v2 (ix2 r f) = s f)
    (h26 : v26 (ix2 r (0 : Fin 1)) = nmax) (h28 : v28 (ix2 r (0 : Fin 1)) = pmin)
    (h33 : ∀ f : Fin 4096, v33 (ix2 r f) = if HP f then 1#1 else 0#1)
    (h38 : ∀ f : Fin 4096, v38 (ix2 r f) = if HN f then 1#1 else 0#1)
    (h40 : ∀ f : Fin 4096, v40 (ix2 r f) = s f - wHalf) :
    k0_pay13 (F := Ideal) v2 v26 v28 v33 v38 v40 (ix2 r (0 : Fin 1))
      = if valid pmin nmax (pSum s HP) (nSum s HN) then 1#1 else 0#1 := by
  unfold k0_pay13
  show IntOp.andi (IntOp.andi (IntOp.andi
          (Ideal.cmp .olt (v28 (ix2 r (0 : Fin 1))) (Ideal.ofBits .f32 0x7F800000#32))
          (Ideal.cmp .ogt (v26 (ix2 r (0 : Fin 1))) (Ideal.ofBits .f32 0xFF800000#32)))
        (Ideal.cmp .ogt (k0_pay11 (F := Ideal) v33 v40 (ix2 r (0 : Fin 1))) (Ideal.ofBits .f32 0x00000000#32)))
      (Ideal.cmp .ogt (k0_pay12 (F := Ideal) v2 v38 (ix2 r (0 : Fin 1))) (Ideal.ofBits .f32 0x00000000#32)) = _
  rw [h28, h26, pay11_apply r s HP v33 v40 h33 h40, pay12_apply r s HN v2 v38 h2 h38, ExtremeReduce.ofBits_posInf,
    ExtremeReduce.ofBits_negInf, Ideal.ofBits_zero_f32, cmp_olt_ite, cmp_ogt_ite, cmp_ogt_ite, cmp_ogt_ite]
  rw [andi_ite _ _ _ Iff.rfl, andi_ite _ _ _ Iff.rfl]
  exact andi_ite _ _ _ Iff.rfl

/-- The stored contribution at row r: the loss term of the row where it is valid, 0 elsewhere. -/
theorem pay14_apply (h2 : ∀ f : Fin 4096, v2 (ix2 r f) = s f)
    (h26 : v26 (ix2 r (0 : Fin 1)) = nmax) (h28 : v28 (ix2 r (0 : Fin 1)) = pmin)
    (h33 : ∀ f : Fin 4096, v33 (ix2 r f) = if HP f then 1#1 else 0#1)
    (h38 : ∀ f : Fin 4096, v38 (ix2 r f) = if HN f then 1#1 else 0#1)
    (h40 : ∀ f : Fin 4096, v40 (ix2 r f) = s f - wHalf) :
    k0_pay14 (F := Ideal) v2 v26 v28 v33 v38 v40 (ix2 r (0 : Fin 1))
      = if valid pmin nmax (pSum s HP) (nSum s HN)
        then wOne * Ideal.log1p (pSum s HP) + wTenth * Ideal.log1p (nSum s HN) else 0 := by
  unfold k0_pay14
  show Scalar.select (k0_pay13 (F := Ideal) v2 v26 v28 v33 v38 v40 (ix2 r (0 : Fin 1)))
      (Ideal.ofBits .f32 0x3F800000#32 * Ideal.log1p (k0_pay11 (F := Ideal) v33 v40 (ix2 r (0 : Fin 1)))
        + Ideal.ofBits .f32 0x3DCCCCCD#32 * Ideal.log1p (k0_pay12 (F := Ideal) v2 v38 (ix2 r (0 : Fin 1))))
      (Ideal.ofBits .f32 0x00000000#32) = _
  rw [pay13_apply r s HP HN v2 v26 v28 v33 v38 v40 nmax pmin h2 h26 h28 h33 h38 h40,
    pay11_apply r s HP v33 v40 h33 h40, pay12_apply r s HN v2 v38 h2 h38, select_ite, Ideal.ofBits_zero_f32]

/-- The stored count at row r: 1 where the row is valid, 0 elsewhere. -/
theorem pay15_apply (h2 : ∀ f : Fin 4096, v2 (ix2 r f) = s f)
    (h26 : v26 (ix2 r (0 : Fin 1)) = nmax) (h28 : v28 (ix2 r (0 : Fin 1)) = pmin)
    (h33 : ∀ f : Fin 4096, v33 (ix2 r f) = if HP f then 1#1 else 0#1)
    (h38 : ∀ f : Fin 4096, v38 (ix2 r f) = if HN f then 1#1 else 0#1)
    (h40 : ∀ f : Fin 4096, v40 (ix2 r f) = s f - wHalf) :
    k0_pay15 (F := Ideal) v2 v26 v28 v33 v38 v40 (ix2 r (0 : Fin 1))
      = if valid pmin nmax (pSum s HP) (nSum s HN) then 1 else 0 := by
  unfold k0_pay15
  show ((((k0_pay13 (F := Ideal) v2 v26 v28 v33 v38 v40 (ix2 r (0 : Fin 1))).setWidth 32).toInt : ℝ) : EReal) = _
  rw [pay13_apply r s HP HN v2 v26 v28 v33 v38 v40 nmax pmin h2 h26 h28 h33 h38 h40]
  by_cases hv : valid pmin nmax (pSum s HP) (nSum s HN)
  · rw [if_pos hv, if_pos hv]; exact bit_one_real
  · rw [if_neg hv, if_neg hv]; exact bit_zero_real

end Cert.KernelIdeal.RowValue

end
-- ==== Proof.RowValue.lean ====
/-
  The two values a grid point stores, read at a row.

  Grid point i loads the embeddings and labels of its 128 anchor samples (rows 128·i, …, 128·i + 127) and of all 4096
  samples.  Row r of what it stores is then, for the anchor sample 128·i + r, the contribution (its loss term where the
  anchor is valid by the test through the mined extremes and the exponential sums, 0 elsewhere) and the count (1 or 0
  by the same test): the functions contribK and countK of the specification.
-/
import proofs.«142021_j72481868087461_2_alg».proof.Proof.RowValueHard
import proofs.«142021_j72481868087461_2_alg».proof.Proof.RowValueTail

noncomputable section

namespace Cert.KernelIdeal.RowValue

open Cert.KernelIdeal Cert.KernelIdeal.Gen Idealize.ShloMosaic Idealize.ShloMosaic.ValueIdx Cert.MultiSim
open scoped Classical

variable (E : Fin 4096 → Fin 128 → EReal) (L : Fin 4096 → BitVec 32)

/-- The stored contribution at row r is the anchor sample's contribution. -/
theorem out4_apply (i : grid0.Coords) (v0 : Vec Ideal S128x128 .f32) (v1 : Vec Ideal S4096x128 .f32)
    (v3 : Vec Ideal S128x1 .i32) (v5 : Vec Ideal S1x4096 .i32)
    (h0 : ∀ (r : Fin 128) (d : Fin 128), v0 (ix2 r d) = E (row i r) d)
    (h1 : ∀ (f : Fin 4096) (d : Fin 128), v1 (ix2 f d) = E f d)
    (h3 : ∀ r : Fin 128, v3 (ix2 r (0 : Fin 1)) = L (row i r)) (h5 : ∀ f : Fin 4096, v5 (ix2 (0 : Fin 1) f) = L f)
    (r : Fin 128) :
    k0_pay14 (F := Ideal) (k0_pay1 v0 v1) (k0_pay6 i v0 v1 v3 v5) (k0_pay7 i v0 v1 v3 v5) (k0_pay8 i v0 v1 v3 v5)
        (k0_pay9 i v0 v1 v3 v5) (k0_pay10 v0 v1) (ix2 r (0 : Fin 1))
      = contribK E L (row i r) :=
  (pay14_apply r (sim E (row i r)) (hardPos E L (row i r)) (hardNeg E L (row i r)) _ _ _ _ _ _
    (negMax E L (row i r)) (posMin E L (row i r))
    (pay1_apply E i v0 v1 h0 h1 r) (pay6_apply E L i v0 v1 v3 v5 h0 h1 h3 h5 r) (pay7_apply E L i v0 v1 v3 v5 h0 h1 h3 h5 r)
    (pay8_apply E L i v0 v1 v3 v5 h0 h1 h3 h5 r) (pay9_apply E L i v0 v1 v3 v5 h0 h1 h3 h5 r)
    (pay10_apply E i v0 v1 h0 h1 r)).trans rfl

/-- The stored count at row r is the anchor sample's count. -/
theorem out5_apply (i : grid0.Coords) (v0 : Vec Ideal S128x128 .f32) (v1 : Vec Ideal S4096x128 .f32)
    (v3 : Vec Ideal S128x1 .i32) (v5 : Vec Ideal S1x4096 .i32)
    (h0 : ∀ (r : Fin 128) (d : Fin 128), v0 (ix2 r d) = E (row i r) d)
    (h1 : ∀ (f : Fin 4096) (d : Fin 128), v1 (ix2 f d) = E f d)
    (h3 : ∀ r : Fin 128, v3 (ix2 r (0 : Fin 1)) = L (row i r)) (h5 : ∀ f : Fin 4096, v5 (ix2 (0 : Fin 1) f) = L f)
    (r : Fin 128) :
    k0_pay15 (F := Ideal) (k0_pay1 v0 v1) (k0_pay6 i v0 v1 v3 v5) (k0_pay7 i v0 v1 v3 v5) (k0_pay8 i v0 v1 v3 v5)
        (k0_pay9 i v0 v1 v3 v5) (k0_pay10 v0 v1) (ix2 r (0 : Fin 1))
      = countK E L (row i r) :=
  (pay15_apply r (sim E (row i r)) (hardPos E L (row i r)) (hardNeg E L (row i r)) _ _ _ _ _ _
    (negMax E L (row i r)) (posMin E L (row i r))
    (pay1_apply E i v0 v1 h0 h1 r) (pay6_apply E L i v0 v1 v3 v5 h0 h1 h3 h5 r) (pay7_apply E L i v0 v1 v3 v5 h0 h1 h3 h5 r)
    (pay8_apply E L i v0 v1 v3 v5 h0 h1 h3 h5 r) (pay9_apply E L i v0 v1 v3 v5 h0 h1 h3 h5 r)
    (pay10_apply E i v0 v1 h0 h1 r)).trans rfl

/-- The same at any index j of the stored column: its row is j's first coordinate. -/
theorem out4_idx (i : grid0.Coords) (v0 : Vec Ideal S128x128 .f32) (v1 : Vec Ideal S4096x128 .f32)
    (v3 : Vec Ideal S128x1 .i32) (v5 : Vec Ideal S1x4096 .i32)
    (h0 : ∀ (r : Fin 128) (d : Fin 128), v0 (ix2 r d) = E (row i r) d)
    (h1 : ∀ (f : Fin 4096) (d : Fin 128), v1 (ix2 f d) = E f d)
    (h3 : ∀ r : Fin 128, v3 (ix2 r (0 : Fin 1)) = L (row i r)) (h5 : ∀ f : Fin 4096, v5 (ix2 (0 : Fin 1) f) = L f)
    (j : S128x1.Idx) :
    k0_pay14 (F := Ideal) (k0_pay1 v0 v1) (k0_pay6 i v0 v1 v3 v5) (k0_pay7 i v0 v1 v3 v5) (k0_pay8 i v0 v1 v3 v5)
        (k0_pay9 i v0 v1 v3 v5) (k0_pay10 v0 v1) j
      = contribK E L (row i (j 0)) := by
  obtain ⟨r, u, rfl⟩ : ∃ (r : Fin 128) (u : Fin 1), j = ix2 r u := ⟨j 0, j 1, eq_ix2 j⟩
  obtain rfl : u = 0 := Subsingleton.elim _ _
  exact out4_apply E L i v0 v1 v3 v5 h0 h1 h3 h5 r

/-- The same at any index j of the stored column: its row is j's first coordinate. -/
theorem out5_idx (i : grid0.Coords) (v0 : Vec Ideal S128x128 .f32) (v1 : Vec Ideal S4096x128 .f32)
    (v3 : Vec Ideal S128x1 .i32) (v5 : Vec Ideal S1x4096 .i32)
    (h0 : ∀ (r : Fin 128) (d : Fin 128), v0 (ix2 r d) = E (row i r) d)
    (h1 : ∀ (f : Fin 4096) (d : Fin 128), v1 (ix2 f d) = E f d)
    (h3 : ∀ r : Fin 128, v3 (ix2 r (0 : Fin 1)) = L (row i r)) (h5 : ∀ f : Fin 4096, v5 (ix2 (0 : Fin 1) f) = L f)
    (j : S128x1.Idx) :
    k0_pay15 (F := Ideal) (k0_pay1 v0 v1) (k0_pay6 i v0 v1 v3 v5) (k0_pay7 i v0 v1 v3 v5) (k0_pay8 i v0 v1 v3 v5)
        (k0_pay9 i v0 v1 v3 v5) (k0_pay10 v0 v1) j
      = countK E L (row i (j 0)) := by
  obtain ⟨r, u, rfl⟩ : ∃ (r : Fin 128) (u : Fin 1), j = ix2 r u := ⟨j 0, j 1, eq_ix2 j⟩
  obtain rfl : u = 0 := Subsingleton.elim _ _
  exact out5_apply E L i v0 v1 v3 v5 h0 h1 h3 h5 r

end Cert.KernelIdeal.RowValue

end
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.Value.lean ====
/-
  The kernel's result at the ideal instance, read off the run: the blocks of the embedding matrix and of the label
  vector a grid point loads are rows of the arguments; what it stores is, row by row, the anchor's contribution and
  count; the 32 blocks tile the two result columns; the host lines after the region sum the two columns, raise the
  count to at least one and divide — the loss, with each anchor's validity decided the kernel's way.
-/
import proofs.«142021_j72481868087461_2_alg».proof.Proof.Run
import proofs.«142021_j72481868087461_2_alg».proof.Proof.Spec
import proofs.«142021_j72481868087461_2_alg».proof.Proof.RowValue
import proofs.«142021_j72481868087461_2_alg».proof.Proof.LibWords
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)
open Idealize.ShloMosaic.ValueIdx

variable (m : (ℓ : Loc nD τ sig) → Buf (Elt Ideal) ℓ)

/-! ## The arguments as a matrix of rows and a vector of labels -/

/-- Core `c`'s embedding matrix by rows and features, and its label vector, as launched. -/
def embOf (c : Dev nD) : Fin 4096 → Fin 128 → EReal := fun p d => (m ((c : Thread nD τ).loc main_arg0) : S4096x128.Idx → EReal) (ix2 p d)
def labOf (c : Dev nD) : Fin 4096 → BitVec 32 := fun p => (m ((c : Thread nD τ).loc main_arg1) : S4096.Idx → BitVec 32) (ix1 p)

/-- The anchor row a grid point's block row stands for. -/
def rowOf (t : Fin cfg0.N) (r : Fin 128) : Fin 4096 := ⟨128 * t.val + r.val, by have h : t.val < grid0.N := t.isLt; rw [N_0] at h; have := r.isLt; omega⟩

/-- The label vector recast as a column and as a row holds the labels. -/
theorem V_col (c : Dev nD) (p : Fin 4096) (z : Fin 1) : (V m c main_v0 : S4096x1.Idx → BitVec 32) (ix2 p z) = labOf m c p := by
  have e : (V m c main_v0 : S4096x1.Idx → BitVec 32)
      = shapeCast S4096x1 (m ((c : Thread nD τ).loc main_arg1) : S4096.Idx → BitVec 32) shapeCasts_S4096_S4096x1 := by
    show StableHlo.after hostOps0 (fun b => m (c, b)) (Proc.devRef .tc main_v0) = _
    after_results
    rfl
  rw [e]
  refine shapeCast_apply _ _ _ (ix1 p) ?_
  rw [Shape.rowMajor_val_one, Shape.rowMajor_val_two]
  have hz : z.val = 0 := by omega
  show p.val = p.val * 1 + z.val
  omega

theorem V_row (c : Dev nD) (z : Fin 1) (f : Fin 4096) : (V m c main_v1 : S1x4096.Idx → BitVec 32) (ix2 z f) = labOf m c f := by
  have e : (V m c main_v1 : S1x4096.Idx → BitVec 32)
      = shapeCast S1x4096 (m ((c : Thread nD τ).loc main_arg1) : S4096.Idx → BitVec 32) shapeCasts_S4096_S1x4096 := by
    show StableHlo.after hostOps0 (fun b => m (c, b)) (Proc.devRef .tc main_v1) = _
    after_results
    rfl
  rw [e]
  refine shapeCast_apply _ _ _ (ix1 f) ?_
  rw [Shape.rowMajor_val_one, Shape.rowMajor_val_two]
  have hz : z.val = 0 := by omega
  show f.val = z.val * 4096 + f.val
  omega

/-- The printed index maps, decided once over the grid: the anchor windows move with the point, the two table
    windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ ((grid0.coords t) 0).val = t.val :=
  (by decide +kernel : ∀ t : Fin grid0.N, _)

/-- The four input blocks at a point, read at an index: rows of the embedding matrix and labels. -/
theorem iblk0_apply (c : Dev nD) (t : Fin cfg0.N) (r d : Fin 128) :
    (iblk m c 0 t : S128x128.Idx → EReal) (ix2 r d) = embOf m c (rowOf t r) d := by
  obtain ⟨e0, e1, -⟩ := idx_facts t
  show V m c main_arg0 (((cfg0.win 0).blk t).view.emb (ix2 r d)) = _
  rw [V_main_arg0]
  unfold embOf
  congr 1
  funext a; apply Fin.ext
  match a with
  | ⟨0, _⟩ => show win0_0.index t (0 : Fin 2) * 128 + 1 * r.val = 128 * t.val + r.val; omega
  | ⟨1, _⟩ => show win0_0.index t (1 : Fin 2) * 128 + 1 * d.val = d.val; omega

theorem iblk1_apply (c : Dev nD) (t : Fin cfg0.N) (f : Fin 4096) (d : Fin 128) :
    (iblk m c 1 t : S4096x128.Idx → EReal) (ix2 f d) = embOf m c f d := by
  obtain ⟨-, -, e0, e1, -⟩ := idx_facts t
  show V m c main_arg0 (((cfg0.win 1).blk t).view.emb (ix2 f d)) = _
  rw [V_main_arg0]
  unfold embOf
  congr 1
  funext a; apply Fin.ext
  match a with
  | ⟨0, _⟩ => show win0_1.index t (0 : Fin 2) * 4096 + 1 * f.val = f.val; omega
  | ⟨1, _⟩ => show win0_1.index t (1 : Fin 2) * 128 + 1 * d.val = d.val; omega

theorem iblk2_apply (c : Dev nD) (t : Fin cfg0.N) (r : Fin 128) (z : Fin 1) :
    (iblk m c 2 t : S128x1.Idx → BitVec 32) (ix2 r z) = labOf m c (rowOf t r) := by
  obtain ⟨-, -, -, -, e0, e1, -⟩ := idx_facts t
  have hz : z.val = 0 := by omega
  show V m c main_v0 (((cfg0.win 2).blk t).view.emb (ix2 r z)) = _
  rw [← V_col m c (rowOf t r) z]
  congr 1
  funext a; apply Fin.ext
  match a with
  | ⟨0, _⟩ => show win0_2.index t (0 : Fin 2) * 128 + 1 * r.val = 128 * t.val + r.val; omega
  | ⟨1, _⟩ => show win0_2.index t (1 : Fin 2) * 1 + 1 * z.val = z.val; omega

theorem iblk3_apply (c : Dev nD) (t : Fin cfg0.N) (z : Fin 1) (f : Fin 4096) :
    (iblk m c 3 t : S1x4096.Idx → BitVec 32) (ix2 z f) = labOf m c f := by
  obtain ⟨-, -, -, -, -, -, e0, e1, -⟩ := idx_facts t
  have hz : z.val = 0 := by omega
  show V m c main_v1 (((cfg0.win 3).blk t).view.emb (ix2 z f)) = _
  rw [← V_row m c z f]
  congr 1
  funext a; apply Fin.ext
  match a with
  | ⟨0, _⟩ => show win0_3.index t (0 : Fin 2) * 1 + 1 * z.val = z.val; omega
  | ⟨1, _⟩ => show win0_3.index t (1 : Fin 2) * 4096 + 1 * f.val = f.val; omega

/-! ## What the region writes: the two result columns as whole arrays -/

open Cert.MultiSim

theorem hz : (![0, 0] : Fin 2 → Nat) = fun _ => 0 := funext fun a => by fin_cases a <;> rfl

/-- The stored values are the payloads of the loaded blocks: each buffer is loaded and stored whole. -/
theorem out4_eq (i : grid0.Coords) (x0 : Vec Ideal S128x128 .f32) (x1 : Vec Ideal S4096x128 .f32) (x2 : Vec Ideal S128x1 .i32) (x3 : Vec Ideal S1x4096 .i32) :
    out4 i x0 x1 x2 x3 = contribOf i x0 x1 x2 x3 := by
  unfold out4
  rw [View.canon_unit_zero hz]
  simp only [View.ld_unit_zero (S := S128x128) hz, View.ld_unit_zero (S := S4096x128) hz, View.ld_unit_zero (S := S128x1) hz,
    View.ld_unit_zero (S := S1x4096) hz]
theorem out5_eq (i : grid0.Coords) (x0 : Vec Ideal S128x128 .f32) (x1 : Vec Ideal S4096x128 .f32) (x2 : Vec Ideal S128x1 .i32) (x3 : Vec Ideal S1x4096 .i32) :
    out5 i x0 x1 x2 x3 = flagOf i x0 x1 x2 x3 := by
  unfold out5
  rw [View.canon_unit_zero hz]
  simp only [View.ld_unit_zero (S := S128x128) hz, View.ld_unit_zero (S := S4096x128) hz, View.ld_unit_zero (S := S128x1) hz,
    View.ld_unit_zero (S := S1x4096) hz]

/-- The anchor of a block row, by the point's number or by its coordinate. -/
theorem row_eq (t : Fin cfg0.N) (r : Fin 128) : RowValue.row (grid0.coords t) r = rowOf t r :=
  Fin.ext (by rw [RowValue.row_val]; show _ = 128 * t.val + r.val; rw [(idx_facts t).2.2.2.2.2.2.2.2.2.2.2.2])

/-- The contribution column and the count column of the whole batch. -/
def contribCol (c : Dev nD) : S4096x1.Idx → EReal := fun j => contribK (embOf m c) (labOf m c) (j 0)
def flagCol (c : Dev nD) : S4096x1.Idx → EReal := fun j => countK (embOf m c) (labOf m c) (j 0)

/-- What point `t` stores, at block row `r`. -/
theorem contribOf_apply (c : Dev nD) (t : Fin cfg0.N) (r : Fin 128) (z : Fin 1) :
    contribOf (grid0.coords t) (iblk m c 0 t) (iblk m c 1 t) (iblk m c 2 t) (iblk m c 3 t) (ix2 r z) = contribK (embOf m c) (labOf m c) (rowOf t r) := by
  obtain rfl : z = 0 := Fin.ext (by omega)
  rw [← row_eq]
  exact RowValue.out4_apply (embOf m c) (labOf m c) (grid0.coords t) _ _ _ _
    (fun r d => by rw [row_eq]; exact iblk0_apply m c t r d) (fun f d => iblk1_apply m c t f d)
    (fun r => by rw [row_eq]; exact iblk2_apply m c t r 0) (fun f => iblk3_apply m c t 0 f) r
theorem flagOf_apply (c : Dev nD) (t : Fin cfg0.N) (r : Fin 128) (z : Fin 1) :
    flagOf (grid0.coords t) (iblk m c 0 t) (iblk m c 1 t) (iblk m c 2 t) (iblk m c 3 t) (ix2 r z) = countK (embOf m c) (labOf m c) (rowOf t r) := by
  obtain rfl : z = 0 := Fin.ext (by omega)
  rw [← row_eq]
  exact RowValue.out5_apply (embOf m c) (labOf m c) (grid0.coords t) _ _ _ _
    (fun r d => by rw [row_eq]; exact iblk0_apply m c t r d) (fun f d => iblk1_apply m c t f d)
    (fun r => by rw [row_eq]; exact iblk2_apply m c t r 0) (fun f => iblk3_apply m c t 0 f) r

/-- WHAT POINT `t` WRITES BACK is block `t` of the batch's column. -/
theorem flushed4_eq (c : Dev nD) (t : Fin cfg0.N) :
    (dats m 0 c).flushed 4 t = ((cfg0.win 4).blk t).view.read (Elt Ideal) (contribCol m c) := by
  show (cfg0.win 4).cut (grid0.coords t) ((dats m 0 c).after 4 t) = _
  rw [after4, out4_eq]
  obtain ⟨-, -, -, -, -, -, -, -, e0, e1, -⟩ := idx_facts t
  funext j
  obtain ⟨r, z, rfl⟩ : ∃ (r : Fin 128) (z : Fin 1), j = ix2 r z := ⟨j 0, j 1, eq_ix2 j⟩
  show contribOf (grid0.coords t) (iblk m c 0 t) (iblk m c 1 t) (iblk m c 2 t) (iblk m c 3 t) (ix2 r z)
    = contribCol m c (((cfg0.win 4).blk t).view.emb (ix2 r z))
  rw [contribOf_apply]
  unfold contribCol
  congr 1
  apply Fin.ext
  show 128 * t.val + r.val = win0_4.index t (0 : Fin 2) * 128 + 1 * r.val
  omega
theorem flushed5_eq (c : Dev nD) (t : Fin cfg0.N) :
    (dats m 0 c).flushed 5 t = ((cfg0.win 5).blk t).view.read (Elt Ideal) (flagCol m c) := by
  show (cfg0.win 5).cut (grid0.coords t) ((dats m 0 c).after 5 t) = _
  rw [after5, out5_eq]
  obtain ⟨-, -, -, -, -, -, -, -, -, -, e0, e1, -⟩ := idx_facts t
  funext j
  obtain ⟨r, z, rfl⟩ : ∃ (r : Fin 128) (z : Fin 1), j = ix2 r z := ⟨j 0, j 1, eq_ix2 j⟩
  show flagOf (grid0.coords t) (iblk m c 0 t) (iblk m c 1 t) (iblk m c 2 t) (iblk m c 3 t) (ix2 r z)
    = flagCol m c (((cfg0.win 5).blk t).view.emb (ix2 r z))
  rw [flagOf_apply]
  unfold flagCol
  congr 1
  apply Fin.ext
  show 128 * t.val + r.val = win0_5.index t (0 : Fin 2) * 128 + 1 * r.val
  omega

/-- An index of a result column is in point `t`'s block iff each coordinate is in the block's range. -/
theorem mem_blk4 (t : Fin cfg0.N) (i : S4096x1.Idx) :
    i ∈ ((cfg0.win 4).blk t).view.set ↔ ∀ a : Fin 2, win0_4.index t a * S128x1.size a ≤ (i a).val ∧ (i a).val < win0_4.index t a * S128x1.size a + S128x1.size a := by
  show i ∈ ((View.whole main_v2_0).slice (win0_4.rect t)).set ↔ _
  rw [View.set_slice_whole, Rect.mem_set_unit]
  exact Iff.rfl
theorem mem_blk5 (t : Fin cfg0.N) (i : S4096x1.Idx) :
    i ∈ ((cfg0.win 5).blk t).view.set ↔ ∀ a : Fin 2, win0_5.index t a * S128x1.size a ≤ (i a).val ∧ (i a).val < win0_5.index t a * S128x1.size a + S128x1.size a := by
  show i ∈ ((View.whole main_v2_1).slice (win0_5.rect t)).set ↔ _
  rw [View.set_slice_whole, Rect.mem_set_unit]
  exact Iff.rfl

/-- The point that covers row `p` is `p / 128`. -/
def pointOf (i : S4096x1.Idx) : Fin cfg0.N := ⟨(i 0).val / 128, by
  have h : (i 0).val < 4096 := (i 0).isLt
  show (i 0).val / 128 < grid0.N
  rw [N_0]; omega⟩

theorem cover4 (i : S4096x1.Idx) : ∃ t : Fin cfg0.N, (cfg0.win 4).flush t = true ∧ i ∈ ((cfg0.win 4).blk t).view.set := by
  refine ⟨pointOf i, flush0_4 _, ?_⟩
  rw [mem_blk4]
  obtain ⟨-, -, -, -, -, -, -, -, e0, e1, -⟩ := idx_facts (pointOf i)
  have h0 : (i 0).val < 4096 := (i 0).isLt
  have h1 : (i 1).val < 1 := (i 1).isLt
  have hp : (pointOf i).val = (i 0).val / 128 := rfl
  intro a
  match a with
  | ⟨0, _⟩ => show win0_4.index (pointOf i) (0 : Fin 2) * 128 ≤ (i 0).val ∧ (i 0).val < win0_4.index (pointOf i) (0 : Fin 2) * 128 + 128; omega
  | ⟨1, _⟩ => show win0_4.index (pointOf i) (1 : Fin 2) * 1 ≤ (i 1).val ∧ (i 1).val < win0_4.index (pointOf i) (1 : Fin 2) * 1 + 1; omega
theorem cover5 (i : S4096x1.Idx) : ∃ t : Fin cfg0.N, (cfg0.win 5).flush t = true ∧ i ∈ ((cfg0.win 5).blk t).view.set := by
  refine ⟨pointOf i, flush0_5 _, ?_⟩
  rw [mem_blk5]
  obtain ⟨-, -, -, -, -, -, -, -, -, -, e0, e1, -⟩ := idx_facts (pointOf i)
  have h0 : (i 0).val < 4096 := (i 0).isLt
  have h1 : (i 1).val < 1 := (i 1).isLt
  have hp : (pointOf i).val = (i 0).val / 128 := rfl
  intro a
  match a with
  | ⟨0, _⟩ => show win0_5.index (pointOf i) (0 : Fin 2) * 128 ≤ (i 0).val ∧ (i 0).val < win0_5.index (pointOf i) (0 : Fin 2) * 128 + 128; omega
  | ⟨1, _⟩ => show win0_5.index (pointOf i) (1 : Fin 2) * 1 ≤ (i 1).val ∧ (i 1).val < win0_5.index (pointOf i) (1 : Fin 2) * 1 + 1; omega

/-- THE TWO COLUMNS after the region: the batch's contributions and counts. -/
theorem contribArr_eq (c : Dev nD) : contribArr m c = contribCol m c :=
  (dats m 0 c).arrAt_eq_of_cover 4 (contribCol m c) (fun t _ => flushed4_eq m c t) cover4
theorem flagArr_eq (c : Dev nD) : flagArr m c = flagCol m c :=
  (dats m 0 c).arrAt_eq_of_cover 5 (flagCol m c) (fun t _ => flushed5_eq m c t) cover5

/-! ## The result -/

/-- A sum over the indices of a column is the sum over its rows. -/
theorem sum_col (g : Fin 4096 → EReal) : ∑ j : S4096x1.Idx, g (j 0) = ∑ p : Fin 4096, g p := by
  rw [sum_idx2]
  refine Finset.sum_congr rfl fun a _ => ?_
  rw [Fin.sum_univ_one]

/-- The kernel's result: the two columns summed, the count raised to at least one, the quotient — the loss decided by
    the kernel's test. -/
theorem result_eq (c : Dev nD) (i : S_.Idx) :
    (Wf m c (Proc.devRef .tc main_v6) : S_.Idx → EReal) i = lossK (embOf m c) (labOf m c) := by
  have e : (Wf m c (Proc.devRef .tc main_v6) : S_.Idx → EReal)
      = Host.divf (Host.reduceAdd (contribArr m c) (constant (F := Ideal) S_ .f32 0x00000000#32) reducesTo_S4096x1_S_d0_1 h_S_)
          (maximumf (Host.reduceAdd (flagArr m c) (constant (F := Ideal) S_ .f32 0x00000000#32) reducesTo_S4096x1_S_d0_1 h_S_)
            (constant (F := Ideal) S_ .f32 0x3F800000#32)) := by
    show StableHlo.after hostOps1 (Wx m c) (Proc.devRef .tc main_v6) = _
    after_results
    rw [Wx_contrib, Wx_flag]
  rw [e, contribArr_eq, flagArr_eq]
  simp only [Host.divf, maximumf, Host.reduceAdd, constant, Ideal.hostReduceAdd_def, Ideal.hostDivf_def, Ideal.maximumf_def, Ideal.ofBits_def]
  rw [Ideal.hostReduceAdd_total reducesTo_S4096x1_S_d0_1 (fun b => b.elim0), Ideal.hostReduceAdd_total reducesTo_S4096x1_S_d0_1 (fun b => b.elim0),
    Ideal.ofBits_zero_f32, Cert.Proof.Words.ofBits_f32_one, zero_add, zero_add]
  unfold lossK contribCol flagCol
  rw [sum_col (contribK (embOf m c) (labOf m c)), sum_col (countK (embOf m c) (labOf m c))]
  rfl

end Cert.KernelIdeal.Body

end
-- ==== Proof.RefValueMasks.lean ====
/-
  The reference program's similarity matrix and its pair masks, read entry by entry: the matrix product of the
  embeddings with their transpose is the inner product of two samples' embeddings; the label comparison, the
  off-diagonal test built from two coordinate grids, and their conjunctions are the one-bit words of "positive
  pair" and "negative pair".
-/
import proofs.«142021_j72481868087461_2_alg».proof.Proof.Gen.ReferenceIdeal.Read
import proofs.«142021_j72481868087461_2_alg».proof.Proof.Spec
import Idealize.ShloMosaic.Lib.Affine

noncomputable section

namespace Cert.ReferenceIdeal.RefValue

open Cert.ReferenceIdeal Cert.ReferenceIdeal.Gen Cert.ReferenceIdeal.Read Idealize.ShloMosaic Idealize.ShloMosaic.StableHlo
open Idealize.ShloMosaic.ValueIdx Cert.MultiSim
open scoped Classical

/-- The embedding matrix and the label vector as functions of the sample (and feature) numbers. -/
abbrev emb (x0 : (⟨S4096x128, .f32⟩ : BufTy).Contents (Elt Ideal)) : Fin 4096 → Fin 128 → EReal := fun p d => x0 (ix2 p d)
abbrev lab (x1 : (⟨S4096, .i32⟩ : BufTy).Contents (Elt Ideal)) : Fin 4096 → BitVec 32 := fun p => x1 (ix1 p)

variable (x0 : (⟨S4096x128, .f32⟩ : BufTy).Contents (Elt Ideal)) (x1 : (⟨S4096, .i32⟩ : BufTy).Contents (Elt Ideal))

/-- Entry (p, f) of the product of the embeddings with their transpose is the similarity of p and f. -/
theorem sim_apply (p f : Fin 4096) : val_main_v1 (F := Ideal) x0 (ix2 p f) = sim (emb x0) p f := by
  rw [val_main_v1_apply]
  unfold sim
  refine Finset.sum_congr rfl fun k _ => ?_
  rw [val_main_v0_apply]
  have e1 : lidx_main_v1 (ix2 p f) k = ix2 p k :=
    funext fun a => Fin.ext (by match a with | ⟨0, _⟩ => rfl | ⟨1, _⟩ => rfl)
  have e2 : idx_main_v0 (ridx_main_v1 (ix2 p f) k) = ix2 f k :=
    funext fun a => Fin.ext (by match a with | ⟨0, _⟩ => rfl | ⟨1, _⟩ => rfl)
  rw [e1, e2]

/-- Two sample numbers have the same 32-bit word exactly when they are equal (both are below 2^32). -/
theorem ofNat_eq_iff (a b : Fin 4096) : BitVec.ofNat 32 a.val = BitVec.ofNat 32 b.val ↔ a = b := by
  constructor
  · intro h
    have h' := congrArg BitVec.toNat h
    rw [BitVec.toNat_ofNat, BitVec.toNat_ofNat, Nat.mod_eq_of_lt (by have := a.isLt; omega),
      Nat.mod_eq_of_lt (by have := b.isLt; omega)] at h'
    exact Fin.ext h'
  · rintro rfl; rfl

/-- The label comparison at (p, f): the row's label against the column's. -/
theorem sameLabel_iff (p f : Fin 4096) : val_main_v6 (F := Ideal) x1 (ix2 p f) = 1#1 ↔ lab x1 p = lab x1 f := by
  rw [val_main_v6_apply, val_main_v4_apply, val_main_v2_apply, val_main_v5_apply, val_main_v3_apply, IntOp.cmpi_eq]
  have e1 : idx_main_v2 (idx_main_v4 (ix2 p f)) = ix1 f :=
    funext fun a => Fin.ext (by match a with | ⟨0, _⟩ => rfl)
  have e2 : idx_main_v3 (idx_main_v5 (ix2 p f)) = ix1 p :=
    funext fun a => Fin.ext (by match a with | ⟨0, _⟩ => rfl)
  rw [e1, e2]
  exact eq_comm

/-- The off-diagonal test at (p, f): the two coordinate grids differ there exactly when p ≠ f. -/
theorem offDiag_iff (p f : Fin 4096) : val_main_v12 (F := Ideal) (ix2 p f) = 1#1 ↔ p ≠ f := by
  rw [val_main_v12_apply, IntOp.not_eq_one, val_main_v11_apply, IntOp.cmpi_eq, val_main_v10_apply, val_main_v7_apply,
    val_main_v8_apply, val_main_v9_apply, val_main_c_apply]
  show ¬ (BitVec.ofNat 32 p.val + 0#32 = BitVec.ofNat 32 f.val) ↔ p ≠ f
  rw [BitVec.add_zero, ofNat_eq_iff]

/-- The positive mask's bit at (p, f). -/
theorem posMask_iff (p f : Fin 4096) : val_main_v13 (F := Ideal) x1 (ix2 p f) = 1#1 ↔ posM (lab x1) p f := by
  rw [val_main_v13_apply, IntOp.andi_eq_one, sameLabel_iff, offDiag_iff]
  exact Iff.rfl

/-- The negative mask's bit at (p, f). -/
theorem negMask_iff (p f : Fin 4096) : val_main_v15 (F := Ideal) x1 (ix2 p f) = 1#1 ↔ negM (lab x1) p f := by
  rw [val_main_v15_apply, IntOp.andi_eq_one, val_main_v14_apply, IntOp.not_eq_one, sameLabel_iff, offDiag_iff]
  exact Iff.rfl

/-- A select on a one-bit word that encodes a proposition is the conditional on that proposition. -/
theorem select_of_iff {α : Type} {c : BitVec 1} {P : Prop} (h : c = 1#1 ↔ P) (a b : α) :
    Scalar.select c a b = if P then a else b := by
  unfold Scalar.select
  exact if_congr h rfl rfl

/-- The strict comparisons of two extended reals as one-bit words. -/
theorem cmp_olt_iff (x y : EReal) : Ideal.cmp .olt x y = 1#1 ↔ x < y := by
  unfold Ideal.cmp
  by_cases h : x < y <;> simp [h]
theorem cmp_ogt_iff (x y : EReal) : Ideal.cmp .ogt x y = 1#1 ↔ y < x := by
  unfold Ideal.cmp
  by_cases h : y < x <;> simp [h]

end Cert.ReferenceIdeal.RefValue

end
-- ==== Proof.RefValueExtremes.lean ====
/-
  The reference program's mined extremes and hard-pair masks, read entry by entry: the row maximum of the
  similarities kept on the negative mask (minus infinity elsewhere) is the supremum over the negatives, the row
  minimum on the positive mask (plus infinity elsewhere) the infimum over the positives; a positive is hard when it
  lies below the first plus the margin word, a negative when it lies above the second minus the margin word.
-/
import proofs.«142021_j72481868087461_2_alg».proof.Proof.RefValueMasks
import proofs.«142021_j72481868087461_2_alg».proof.Proof.LibExtremeReduce

noncomputable section

namespace Cert.ReferenceIdeal.RefValue

open Cert.ReferenceIdeal Cert.ReferenceIdeal.Gen Cert.ReferenceIdeal.Read Idealize.ShloMosaic Idealize.ShloMosaic.StableHlo
open Idealize.ShloMosaic.ValueIdx Cert.MultiSim
open scoped Classical

variable (x0 : (⟨S4096x128, .f32⟩ : BufTy).Contents (Elt Ideal)) (x1 : (⟨S4096, .i32⟩ : BufTy).Contents (Elt Ideal))

/-- Dropping the column axis of the square matrix leaves the rows. -/
theorem rowsReduce : S4096x4096.Reduces [1] S4096 := by decide

/-- Over row p, the index with column k inserted is (p, k). -/
theorem lift_row (p k : Fin 4096) : rowsReduce.lift (ix1 p) k = ix2 p k :=
  funext fun c => Fin.ext (by match c with | ⟨0, _⟩ => rfl | ⟨1, _⟩ => rfl)

/-- The similarities kept on the negative mask, minus infinity elsewhere. -/
theorem whereNeg_apply (p f : Fin 4096) :
    val_main_v16 (F := Ideal) x0 x1 (ix2 p f) = if negM (lab x1) p f then sim (emb x0) p f else ⊥ := by
  rw [val_main_v16_apply, select_of_iff (negMask_iff x1 p f), sim_apply, val_main_call0_v1_apply, val_main_call0_v0_apply,
    val_main_cst_apply, Ideal.ofBits_def, ExtremeReduce.ofBits_negInf]

/-- The similarities kept on the positive mask, plus infinity elsewhere. -/
theorem wherePos_apply (p f : Fin 4096) :
    val_main_v18 (F := Ideal) x0 x1 (ix2 p f) = if posM (lab x1) p f then sim (emb x0) p f else ⊤ := by
  rw [val_main_v18_apply, select_of_iff (posMask_iff x1 p f), sim_apply, val_main_call1_v1_apply, val_main_call1_v0_apply,
    val_main_cst_1_apply, Ideal.ofBits_def, ExtremeReduce.ofBits_posInf]

/-- The row maximum over the negatives. -/
theorem negMax_apply (p : Fin 4096) : val_main_v17 (F := Ideal) x0 x1 (ix1 p) = negMax (emb x0) (lab x1) p := by
  unfold val_main_v17 val_main_cst_0
  refine (ExtremeReduce.hostReduce_max_single _ reducesTo_S4096x4096_S4096_d1 rowsReduce h_S_ (ix1 p)).trans ?_
  unfold negMax
  refine iSup_congr fun (f : Fin 4096) => ?_
  exact (congrArg (val_main_v16 (F := Ideal) x0 x1) (lift_row p f)).trans (whereNeg_apply x0 x1 p f)

/-- The row minimum over the positives. -/
theorem posMin_apply (p : Fin 4096) : val_main_v19 (F := Ideal) x0 x1 (ix1 p) = posMin (emb x0) (lab x1) p := by
  unfold val_main_v19 val_main_cst_2
  refine (ExtremeReduce.hostReduce_min_single _ reducesTo_S4096x4096_S4096_d1 rowsReduce h_S_ (ix1 p)).trans ?_
  unfold posMin
  refine iInf_congr fun (f : Fin 4096) => ?_
  exact (congrArg (val_main_v18 (F := Ideal) x0 x1) (lift_row p f)).trans (wherePos_apply x0 x1 p f)

/-- The hardest negative plus the margin word, spread over the row. -/
theorem negBound_apply (p f : Fin 4096) :
    val_main_v23 (F := Ideal) x0 x1 (ix2 p f) = negMax (emb x0) (lab x1) p + wTenth := by
  have e : idx_main_v22 (idx_main_v23 (ix2 p f)) = ix1 p := funext fun a => Fin.ext (by match a with | ⟨0, _⟩ => rfl)
  rw [val_main_v23_apply, val_main_v22_apply, e, val_main_v21_apply, negMax_apply, val_main_v20_apply, val_main_cst_3_apply]
  rfl

/-- The hardest positive minus the margin word, spread over the row. -/
theorem posBound_apply (p f : Fin 4096) :
    val_main_v29 (F := Ideal) x0 x1 (ix2 p f) = posMin (emb x0) (lab x1) p - wTenth := by
  have e : idx_main_v28 (idx_main_v29 (ix2 p f)) = ix1 p := funext fun a => Fin.ext (by match a with | ⟨0, _⟩ => rfl)
  rw [val_main_v29_apply, val_main_v28_apply, e, val_main_v27_apply, posMin_apply, val_main_v26_apply, val_main_cst_4_apply]
  rfl

/-- The hard-positive mask's bit at (p, f). -/
theorem hardPos_iff (p f : Fin 4096) :
    val_main_v25 (F := Ideal) x0 x1 (ix2 p f) = 1#1 ↔ hardPos (emb x0) (lab x1) p f := by
  rw [val_main_v25_apply, IntOp.andi_eq_one, posMask_iff, val_main_v24_apply, Ideal.cmpf_def, cmp_olt_iff, sim_apply,
    negBound_apply]
  exact Iff.rfl

/-- The hard-negative mask's bit at (p, f). -/
theorem hardNeg_iff (p f : Fin 4096) :
    val_main_v31 (F := Ideal) x0 x1 (ix2 p f) = 1#1 ↔ hardNeg (emb x0) (lab x1) p f := by
  rw [val_main_v31_apply, IntOp.andi_eq_one, negMask_iff, val_main_v30_apply, Ideal.cmpf_def, cmp_ogt_iff, sim_apply,
    posBound_apply]
  exact Iff.rfl

end Cert.ReferenceIdeal.RefValue

end
-- ==== Proof.RefValueSums.lean ====
/-
  The reference program's exponential sums and loss terms, read row by row: the exponentials kept on the hard
  masks (zero elsewhere) summed along a row are the sums over the hard positives and the hard negatives, and the
  two scaled log-plus-one values added are the anchor's loss term.
-/
import proofs.«142021_j72481868087461_2_alg».proof.Proof.RefValueExtremes

noncomputable section

namespace Cert.ReferenceIdeal.RefValue

open Cert.ReferenceIdeal Cert.ReferenceIdeal.Gen Cert.ReferenceIdeal.Read Idealize.ShloMosaic Idealize.ShloMosaic.StableHlo
open Idealize.ShloMosaic.ValueIdx Cert.MultiSim
open scoped Classical

variable (x0 : (⟨S4096x128, .f32⟩ : BufTy).Contents (Elt Ideal)) (x1 : (⟨S4096, .i32⟩ : BufTy).Contents (Elt Ideal))

/-- The exponential of minus the similarity's excess over the half word, kept on the hard positives. -/
theorem wherePosExp_apply (p f : Fin 4096) :
    val_main_v37 (F := Ideal) x0 x1 (ix2 p f)
      = if hardPos (emb x0) (lab x1) p f then Ideal.exp (wNegOne * (sim (emb x0) p f - wHalf)) else 0 := by
  rw [val_main_v37_apply, select_of_iff (hardPos_iff x0 x1 p f), val_main_v36_apply, val_main_v35_apply, val_main_v34_apply,
    val_main_cst_6_apply, val_main_v33_apply, sim_apply, val_main_v32_apply, val_main_cst_5_apply, val_main_call2_v1_apply,
    val_main_call2_v0_apply, val_main_cst_7_apply, Ideal.ofBits_def, Ideal.ofBits_def, Ideal.ofBits_def, Ideal.ofBits_zero_f32]
  rfl

/-- The exponential of ten times the similarity's excess over the half word, kept on the hard negatives. -/
theorem whereNegExp_apply (p f : Fin 4096) :
    val_main_v44 (F := Ideal) x0 x1 (ix2 p f)
      = if hardNeg (emb x0) (lab x1) p f then Ideal.exp (wTen * (sim (emb x0) p f - wHalf)) else 0 := by
  rw [val_main_v44_apply, select_of_iff (hardNeg_iff x0 x1 p f), val_main_v43_apply, val_main_v42_apply, val_main_v41_apply,
    val_main_cst_10_apply, val_main_v40_apply, sim_apply, val_main_v39_apply, val_main_cst_9_apply, val_main_call3_v1_apply,
    val_main_call3_v0_apply, val_main_cst_11_apply, Ideal.ofBits_def, Ideal.ofBits_def, Ideal.ofBits_def, Ideal.ofBits_zero_f32]
  rfl

/-- The row sum over the hard positives. -/
theorem posSum_apply (p : Fin 4096) : val_main_v38 (F := Ideal) x0 x1 (ix1 p) = posSum (emb x0) (lab x1) p := by
  rw [val_main_v38_apply, val_main_cst_8_apply, Ideal.ofBits_def, Ideal.ofBits_zero_f32, zero_add]
  unfold posSum
  refine Finset.sum_congr rfl fun f _ => ?_
  have e : idx_main_v38 (ix1 p) f = ix2 p f :=
    funext fun a => Fin.ext (by match a with | ⟨0, _⟩ => rfl | ⟨1, _⟩ => rfl)
  rw [e, wherePosExp_apply]

/-- The row sum over the hard negatives. -/
theorem negSum_apply (p : Fin 4096) : val_main_v45 (F := Ideal) x0 x1 (ix1 p) = negSum (emb x0) (lab x1) p := by
  rw [val_main_v45_apply, val_main_cst_12_apply, Ideal.ofBits_def, Ideal.ofBits_zero_f32, zero_add]
  unfold negSum
  refine Finset.sum_congr rfl fun f _ => ?_
  have e : idx_main_v45 (ix1 p) f = ix2 p f :=
    funext fun a => Fin.ext (by match a with | ⟨0, _⟩ => rfl | ⟨1, _⟩ => rfl)
  rw [e, whereNegExp_apply]

/-- The anchor's loss term. -/
theorem term_apply (p : Fin 4096) : val_main_v61 (F := Ideal) x0 x1 (ix1 p) = term (emb x0) (lab x1) p := by
  rw [val_main_v61_apply, val_main_v48_apply, val_main_v47_apply, val_main_cst_13_apply, val_main_v46_apply, posSum_apply,
    val_main_v51_apply, val_main_v50_apply, val_main_cst_14_apply, val_main_v49_apply, negSum_apply]
  rfl

end Cert.ReferenceIdeal.RefValue

end
-- ==== Proof.RefValueValid.lean ====
/-
  The reference program's validity test and its count, read row by row: an or-reduction of a one-bit mask along a
  row is 1 exactly when the mask has a 1 in that row, so the conjunction of the four reductions is the bit of "the
  anchor has a positive, a negative, a hard positive and a hard negative"; the sum of those bits widened to 32-bit
  words is the number of valid anchors (at most 4096, so the sum does not wrap), and the larger of that number and
  one, converted, is that natural number as a real.
-/
import proofs.«142021_j72481868087461_2_alg».proof.Proof.RefValueSums
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.StableHlo
open Idealize.ShloMosaic.ValueIdx Cert.MultiSim
open scoped Classical

/-- An or-fold of one-bit words is 1 exactly when it started at 1 or met a 1. -/
theorem fold_ori_eq_one {ι : Type} [DecidableEq ι] (s : Finset ι) (b : BitVec 1) (g : ι → BitVec 1) :
    s.fold IntOp.ori b g = 1#1 ↔ b = 1#1 ∨ ∃ k ∈ s, g k = 1#1 := by
  refine Finset.induction_on s ?_ ?_
  · simp
  · intro a s ha ih
    rw [Finset.fold_insert ha, IntOp.ori_eq_one, ih]
    constructor
    · rintro (h | h | ⟨k, hk, h⟩)
      · exact Or.inr ⟨a, Finset.mem_insert_self a s, h⟩
      · exact Or.inl h
      · exact Or.inr ⟨k, Finset.mem_insert_of_mem hk, h⟩
    · rintro (h | ⟨k, hk, h⟩)
      · exact Or.inr (Or.inl h)
      · rcases Finset.mem_insert.1 hk with rfl | hk
        · exact Or.inl h
        · exact Or.inr (Or.inr ⟨k, hk, h⟩)

/-- An add-fold from zero of 32-bit words that are each 1 on a set and 0 off it is the word of the set's size. -/
theorem fold_addi_indicator {ι : Type} [DecidableEq ι] (s : Finset ι) (P : ι → Prop) [DecidablePred P] (g : ι → BitVec 32)
    (hg : ∀ k, g k = if P k then 1#32 else 0#32) : s.fold IntOp.addi 0#32 g = BitVec.ofNat 32 (s.filter P).card := by
  refine Finset.induction_on s ?_ ?_
  · rfl
  · intro a s ha ih
    rw [Finset.fold_insert ha, ih, hg a, Finset.filter_insert]
    by_cases h : P a
    · rw [if_pos h, if_pos h, Finset.card_insert_of_notMem (fun hm => ha (Finset.mem_filter.1 hm).1)]
      show 1#32 + BitVec.ofNat 32 _ = _
      rw [BitVec.ofNat_add, BitVec.add_comm]
    · rw [if_neg h, if_neg h]
      show 0#32 + BitVec.ofNat 32 _ = _
      rw [BitVec.zero_add]

/-- A one-bit word widened to 32 bits. -/
theorem setWidth_bit (b : BitVec 1) : b.setWidth 32 = if b = 1#1 then 1#32 else 0#32 := by revert b; decide

/-- A small natural number's 32-bit word reads back signed as itself. -/
theorem toInt_ofNat_small (c : ℕ) (hc : c ≤ 4096) : (BitVec.ofNat 32 c).toInt = (c : ℤ) := by
  have hn : (BitVec.ofNat 32 c).toNat = c := by rw [BitVec.toNat_ofNat]; exact Nat.mod_eq_of_lt (by omega)
  rw [BitVec.toInt_eq_toNat_of_lt (by rw [hn]; omega), hn]

/-- The signed maximum of a small count's word and the word of one. -/
theorem maxsi_count (c : ℕ) (hc : c ≤ 4096) : IntOp.maxsi (BitVec.ofNat 32 c) 1#32 = BitVec.ofNat 32 (max c 1) := by
  have h1 : (1#32 : BitVec 32).toInt = 1 := by decide
  unfold IntOp.maxsi
  by_cases h : 1 < c
  · rw [if_pos (by rw [BitVec.slt_iff_toInt_lt, toInt_ofNat_small c hc, h1]; exact_mod_cast h), Nat.max_eq_left (by omega)]
  · rw [if_neg (by rw [BitVec.slt_iff_toInt_lt, toInt_ofNat_small c hc, h1]; exact_mod_cast h), Nat.max_eq_right (by omega)]

variable (x0 : (⟨S4096x128, .f32⟩ : BufTy).Contents (Elt Ideal)) (x1 : (⟨S4096, .i32⟩ : BufTy).Contents (Elt Ideal))

/-- An or-reduction along the rows from the zero bit: 1 at row p exactly when the row has a 1. -/
theorem orRow_iff (x : (⟨S4096x4096, .i1⟩ : BufTy).Contents (Elt Ideal)) (init : (⟨S_, .i1⟩ : BufTy).Contents (Elt Ideal))
    (hinit : ∀ i, init i = 0#1) (p : Fin 4096) :
    Host.reduce IntOp.ori x init reducesTo_S4096x4096_S4096_d1 h_S_ (ix1 p) = 1#1 ↔ ∃ f : Fin 4096, x (ix2 p f) = 1#1 := by
  refine (Host.reduce_eq_fold_single IntOp.ori x init reducesTo_S4096x4096_S4096_d1 rowsReduce h_S_ (ix1 p)).symm ▸ ?_
  refine (fold_ori_eq_one _ _ _).trans ?_
  constructor
  · rintro (h | ⟨k, -, h⟩)
    · exact absurd ((hinit _).symm.trans h) (by decide)
    · exact ⟨k, (congrArg x (lift_row p k)).symm.trans h⟩
  · rintro ⟨f, h⟩
    exact Or.inr ⟨f, Finset.mem_univ _, (congrArg x (lift_row p f)).trans h⟩

/-- The anchor has a positive / a negative / a hard positive / a hard negative. -/
theorem anyPos_iff (p : Fin 4096) : val_main_v52 (F := Ideal) x1 (ix1 p) = 1#1 ↔ ∃ f, posM (lab x1) p f := by
  unfold val_main_v52
  exact (orRow_iff _ _ val_main_c_15_apply p).trans (exists_congr fun f => posMask_iff x1 p f)
theorem anyNeg_iff (p : Fin 4096) : val_main_v53 (F := Ideal) x1 (ix1 p) = 1#1 ↔ ∃ f, negM (lab x1) p f := by
  unfold val_main_v53
  exact (orRow_iff _ _ val_main_c_16_apply p).trans (exists_congr fun f => negMask_iff x1 p f)
theorem anyHardPos_iff (p : Fin 4096) :
    val_main_v55 (F := Ideal) x0 x1 (ix1 p) = 1#1 ↔ ∃ f, hardPos (emb x0) (lab x1) p f := by
  unfold val_main_v55
  exact (orRow_iff _ _ val_main_c_17_apply p).trans (exists_congr fun f => hardPos_iff x0 x1 p f)
theorem anyHardNeg_iff (p : Fin 4096) :
    val_main_v57 (F := Ideal) x0 x1 (ix1 p) = 1#1 ↔ ∃ f, hardNeg (emb x0) (lab x1) p f := by
  unfold val_main_v57
  exact (orRow_iff _ _ val_main_c_18_apply p).trans (exists_congr fun f => hardNeg_iff x0 x1 p f)

/-- The validity bit of an anchor. -/
theorem valid_iff (p : Fin 4096) : val_main_v58 (F := Ideal) x0 x1 (ix1 p) = 1#1 ↔ validR (emb x0) (lab x1) p := by
  rw [val_main_v58_apply, IntOp.andi_eq_one, val_main_v56_apply, IntOp.andi_eq_one, val_main_v54_apply, IntOp.andi_eq_one,
    anyPos_iff, anyNeg_iff, anyHardPos_iff, anyHardNeg_iff]
  exact Iff.rfl

/-- The anchor's term where it is valid, zero elsewhere. -/
theorem contrib_apply (p : Fin 4096) :
    val_main_v62 (F := Ideal) x0 x1 (ix1 p) = if validR (emb x0) (lab x1) p then term (emb x0) (lab x1) p else 0 := by
  rw [val_main_v62_apply, select_of_iff (valid_iff x0 x1 p), term_apply, val_main_call4_v1_apply, val_main_call4_v0_apply,
    val_main_cst_20_apply, Ideal.ofBits_def, Ideal.ofBits_zero_f32]

/-- The sample numbers as the indices of a vector of 4096 entries. -/
def idxEquiv1 : Fin 4096 ≃ S4096.Idx where
  toFun := ix1
  invFun j := j 0
  left_inv _ := rfl
  right_inv j := (eq_ix1 j).symm

/-- The numerator: the terms of the valid anchors added up. -/
theorem numer_apply (i : S_.Idx) :
    val_main_v63 (F := Ideal) x0 x1 i = ∑ p : Fin 4096, if validR (emb x0) (lab x1) p then term (emb x0) (lab x1) p else 0 := by
  rw [val_main_v63_apply, val_main_cst_21_apply, Ideal.ofBits_def, Ideal.ofBits_zero_f32, zero_add,
    ← Equiv.sum_comp idxEquiv1 (val_main_v62 (F := Ideal) x0 x1)]
  exact Finset.sum_congr rfl fun p _ => contrib_apply x0 x1 p

/-- The scalar shape has one index. -/
instance : Subsingleton S_.Idx := ⟨fun _ _ => funext fun d => d.elim0⟩

/-- The number of valid anchors as a 32-bit word. -/
theorem count_apply (i : S_.Idx) :
    val_main_v60 (F := Ideal) x0 x1 i
      = BitVec.ofNat 32 (Finset.univ.filter fun p : Fin 4096 => validR (emb x0) (lab x1) p).card := by
  unfold val_main_v60
  refine (Host.reduce_eq_fold IntOp.addi _ _ reducesTo_S4096_S_d0 h_S_ i).trans ?_
  have hall : ∀ j : S4096.Idx, reducesTo_S4096_S_d0.drop j = i := fun j => Subsingleton.elim _ _
  simp only [hall, Finset.filter_true]
  rw [← Finset.map_univ_equiv idxEquiv1, Finset.fold_map]
  show (Finset.univ : Finset (Fin 4096)).fold IntOp.addi 0#32 (fun k => val_main_v59 (F := Ideal) x0 x1 (ix1 k)) = _
  refine fold_addi_indicator _ (fun p => validR (emb x0) (lab x1) p) _ (fun k => ?_)
  rw [val_main_v59_apply, setWidth_bit]
  exact if_congr (valid_iff x0 x1 k) rfl rfl

/-- The denominator: the larger of the number of valid anchors and one, as a real. -/
theorem denom_apply (i : S_.Idx) :
    val_main_v65 (F := Ideal) x0 x1 i
      = (((max (Finset.univ.filter fun p : Fin 4096 => validR (emb x0) (lab x1) p).card 1 : ℕ) : ℝ) : EReal) := by
  have hc : (Finset.univ.filter fun p : Fin 4096 => validR (emb x0) (lab x1) p).card ≤ 4096 :=
    (Finset.card_filter_le _ _).trans (by rw [Finset.card_univ, Fintype.card_fin])
  rw [val_main_v65_apply, val_main_v64_apply, count_apply, val_main_c_22_apply, maxsi_count _ hc]
  show (((BitVec.ofNat 32 _).toInt : ℝ) : EReal) = _
  rw [toInt_ofNat_small _ (by omega), Int.cast_natCast]

end Cert.ReferenceIdeal.RefValue

end
-- ==== Proof.RefValue.lean ====
/-
  The reference program's result is the multi-similarity loss with the reference's validity test: the sum of the
  valid anchors' terms divided by the larger of their number and one.
-/
import proofs.«142021_j72481868087461_2_alg».proof.Proof.RefValueValid

noncomputable section

namespace Cert.ReferenceIdeal.RefValue

open Cert.ReferenceIdeal Cert.ReferenceIdeal.Gen Cert.ReferenceIdeal.Read Idealize.ShloMosaic Idealize.ShloMosaic.StableHlo
open Idealize.ShloMosaic.ValueIdx Cert.MultiSim

/-- The reference's one result, at its one index, is the loss of the embeddings and labels it was given. -/
theorem result_eq (x0 : (⟨S4096x128, .f32⟩ : BufTy).Contents (Elt Ideal)) (x1 : (⟨S4096, .i32⟩ : BufTy).Contents (Elt Ideal))
    (i : S_.Idx) :
    Cert.ReferenceIdeal.Read.val_main_v66 (F := Ideal) x0 x1 i
      = Cert.MultiSim.lossR (fun p d => x0 (ValueIdx.ix2 p d)) (fun p => x1 (ValueIdx.ix1 p)) := by
  rw [val_main_v66_apply, Ideal.hostDivf_def, numer_apply, denom_apply]
  rfl

end Cert.ReferenceIdeal.RefValue

end
-- ==== Proof.LossAgree.lean ====
/-
  The two readings of the multi-similarity loss agree on real embeddings.  With every embedding entry
  a real number, every similarity is a real number; so an infimum over the positives is below the top
  exactly when a positive exists, a supremum over the negatives is above the bottom exactly when a
  negative exists, every exponential is a positive real, and a finite sum of non-negative terms is
  positive exactly when one term is.  Hence the two validity tests select the same anchors, the
  numerators agree term by term, and the sum of the indicator values is the cardinality of the set of
  valid anchors.
-/
import proofs.«142021_j72481868087461_2_alg».proof.Proof.Spec

noncomputable section

namespace Cert.MultiSim

open Idealize.ShloMosaic
open scoped Classical

/-! ### Generalities on the extended reals -/

/-- The embedding of the reals commutes with finite sums. -/
theorem coe_sum_real {ι : Type*} (s : Finset ι) (g : ι → ℝ) :
    ((∑ i ∈ s, g i : ℝ) : EReal) = ∑ i ∈ s, (g i : EReal) := by
  induction s using Finset.induction_on with
  | empty => simp
  | insert a s ha ih => rw [Finset.sum_insert ha, Finset.sum_insert ha, EReal.coe_add, ih]

/-- A finite sum of non-negative extended reals is positive exactly when a summand is. -/
theorem sum_pos_iff_exists {ι : Type*} [Fintype ι] (g : ι → EReal) (h0 : ∀ i, 0 ≤ g i) :
    0 < ∑ i, g i ↔ ∃ i, 0 < g i := by
  constructor
  · intro h
    by_contra hne
    have hle : ∀ i, g i ≤ 0 := fun i => not_lt.mp fun hi => hne ⟨i, hi⟩
    have hz : ∑ i, g i = 0 := Finset.sum_eq_zero fun i _ => le_antisymm (hle i) (h0 i)
    rw [hz] at h
    exact lt_irrefl _ h
  · rintro ⟨i, hi⟩
    exact hi.trans_le (Finset.single_le_sum (fun j _ => h0 j) (Finset.mem_univ i))

/-- A pattern whose exponent field is not all ones denotes a real number. -/
theorem ieee_real (e m : Nat) {w : Nat} (b : BitVec w)
    (h : (b.extractLsb' m e).toNat ≠ 2 ^ e - 1) : ∃ r : ℝ, Ideal.ieee e m b = (r : EReal) := by
  unfold Ideal.ieee
  simp only [if_neg h]
  split_ifs <;> exact ⟨_, rfl⟩

/-! ### The five float words are real numbers -/

theorem wTenth_real : ∃ r : ℝ, wTenth = (r : EReal) :=
  ieee_real 8 23 (0x3DCCCCCD#32 : BitVec 32) (by decide)
theorem wHalf_real : ∃ r : ℝ, wHalf = (r : EReal) :=
  ieee_real 8 23 (0x3F000000#32 : BitVec 32) (by decide)
theorem wNegOne_real : ∃ r : ℝ, wNegOne = (r : EReal) :=
  ieee_real 8 23 (0xBF800000#32 : BitVec 32) (by decide)
theorem wTen_real : ∃ r : ℝ, wTen = (r : EReal) :=
  ieee_real 8 23 (0x41200000#32 : BitVec 32) (by decide)
theorem wOne_real : ∃ r : ℝ, wOne = (r : EReal) :=
  ieee_real 8 23 (0x3F800000#32 : BitVec 32) (by decide)

variable (E : Fin 4096 → Fin 128 → EReal) (L : Fin 4096 → BitVec 32)

/-! ### Similarities and exponentials -/

/-- Every similarity of real embeddings is a real number. -/
theorem sim_real (hE : ∀ p d, ∃ r : ℝ, E p d = (r : EReal)) (p f : Fin 4096) :
    ∃ r : ℝ, sim E p f = (r : EReal) := by
  choose e he using hE
  refine ⟨∑ d, e p d * e f d, ?_⟩
  unfold sim
  rw [coe_sum_real]
  refine Finset.sum_congr rfl fun d _ => ?_
  rw [he, he, EReal.coe_mul]

/-- The exponential of a real multiple of a real difference is a positive extended real. -/
theorem exp_pos_of_real (a s h : EReal) (ha : ∃ r : ℝ, a = (r : EReal)) (hs : ∃ r : ℝ, s = (r : EReal))
    (hh : ∃ r : ℝ, h = (r : EReal)) : 0 < Ideal.exp (a * (s - h)) := by
  obtain ⟨a, rfl⟩ := ha
  obtain ⟨s, rfl⟩ := hs
  obtain ⟨h, rfl⟩ := hh
  rw [← EReal.coe_sub, ← EReal.coe_mul]
  show (0 : EReal) < ((Real.exp (a * (s - h)) : ℝ) : EReal)
  exact_mod_cast Real.exp_pos _

/-! ### The four tests, one by one -/

theorem posMin_lt_top_iff (hE : ∀ p d, ∃ r : ℝ, E p d = (r : EReal)) (p : Fin 4096) :
    posMin E L p < ⊤ ↔ ∃ f, posM L p f := by
  unfold posMin
  rw [iInf_lt_iff]
  refine exists_congr fun f => ?_
  by_cases hp : posM L p f
  · obtain ⟨r, hr⟩ := sim_real E hE p f
    rw [if_pos hp, hr]
    exact ⟨fun _ => hp, fun _ => EReal.coe_lt_top r⟩
  · rw [if_neg hp]
    exact ⟨fun h => absurd h (lt_irrefl _), fun h => absurd h hp⟩

theorem bot_lt_negMax_iff (hE : ∀ p d, ∃ r : ℝ, E p d = (r : EReal)) (p : Fin 4096) :
    ⊥ < negMax E L p ↔ ∃ f, negM L p f := by
  unfold negMax
  rw [lt_iSup_iff]
  refine exists_congr fun f => ?_
  by_cases hp : negM L p f
  · obtain ⟨r, hr⟩ := sim_real E hE p f
    rw [if_pos hp, hr]
    exact ⟨fun _ => hp, fun _ => EReal.bot_lt_coe r⟩
  · rw [if_neg hp]
    exact ⟨fun h => absurd h (lt_irrefl _), fun h => absurd h hp⟩

theorem posSum_pos_iff (hE : ∀ p d, ∃ r : ℝ, E p d = (r : EReal)) (p : Fin 4096) :
    0 < posSum E L p ↔ ∃ f, hardPos E L p f := by
  have hpos : ∀ f, 0 < Ideal.exp (wNegOne * (sim E p f - wHalf)) := fun f =>
    exp_pos_of_real _ _ _ wNegOne_real (sim_real E hE p f) wHalf_real
  unfold posSum
  rw [sum_pos_iff_exists]
  · refine exists_congr fun f => ?_
    by_cases hp : hardPos E L p f
    · rw [if_pos hp]
      exact ⟨fun _ => hp, fun _ => hpos f⟩
    · rw [if_neg hp]
      exact ⟨fun h => absurd h (lt_irrefl _), fun h => absurd h hp⟩
  · intro f
    by_cases hp : hardPos E L p f
    · rw [if_pos hp]; exact (hpos f).le
    · rw [if_neg hp]

theorem negSum_pos_iff (hE : ∀ p d, ∃ r : ℝ, E p d = (r : EReal)) (p : Fin 4096) :
    0 < negSum E L p ↔ ∃ f, hardNeg E L p f := by
  have hpos : ∀ f, 0 < Ideal.exp (wTen * (sim E p f - wHalf)) := fun f =>
    exp_pos_of_real _ _ _ wTen_real (sim_real E hE p f) wHalf_real
  unfold negSum
  rw [sum_pos_iff_exists]
  · refine exists_congr fun f => ?_
    by_cases hp : hardNeg E L p f
    · rw [if_pos hp]
      exact ⟨fun _ => hp, fun _ => hpos f⟩
    · rw [if_neg hp]
      exact ⟨fun h => absurd h (lt_irrefl _), fun h => absurd h hp⟩
  · intro f
    by_cases hp : hardNeg E L p f
    · rw [if_pos hp]; exact (hpos f).le
    · rw [if_neg hp]

/-- The two validity tests select the same anchors. -/
theorem validK_iff_validR (hE : ∀ p d, ∃ r : ℝ, E p d = (r : EReal)) (p : Fin 4096) :
    validK E L p ↔ validR E L p := by
  unfold validK validR
  rw [posMin_lt_top_iff E L hE, bot_lt_negMax_iff E L hE, posSum_pos_iff E L hE, negSum_pos_iff E L hE]

/-! ### The counts -/

/-- The indicator values of a predicate, summed as extended reals, give the cardinality of its set. -/
theorem sum_indicator_eq_card {ι : Type*} [Fintype ι] (P : ι → Prop) :
    (∑ i, (if P i then (1 : EReal) else 0)) = (((Finset.univ.filter P).card : ℕ) : ℝ) := by
  have h : ∀ i, (if P i then (1 : EReal) else 0) = (((if P i then (1 : ℝ) else 0) : ℝ) : EReal) := by
    intro i
    by_cases hp : P i
    · simp only [if_pos hp, EReal.coe_one]
    · simp only [if_neg hp, EReal.coe_zero]
  simp only [h]
  rw [← coe_sum_real, Finset.sum_boole]

/-- The larger of a count and one, taken among the extended reals or among the naturals. -/
theorem max_card_one (n : ℕ) : max (((n : ℕ) : ℝ) : EReal) 1 = (((max n 1 : ℕ) : ℝ) : EReal) := by
  have h := EReal.coe_strictMono.monotone.map_max (a := (n : ℝ)) (b := 1)
  rw [Nat.cast_max, Nat.cast_one, h, EReal.coe_one]

/-! ### The two losses -/

theorem lossK_eq_lossR (E : Fin 4096 → Fin 128 → EReal) (L : Fin 4096 → BitVec 32)
    (hE : ∀ p d, ∃ r : ℝ, E p d = (r : EReal)) : lossK E L = lossR E L := by
  have hv : validK E L = validR E L := funext fun p => propext (validK_iff_validR E L hE p)
  unfold lossK lossR contribK countK
  rw [hv, sum_indicator_eq_card, max_card_one]

end Cert.MultiSim

end
-- ==== Proof.Finite.lean ====
/-
  From the precondition to real entries: the printed predicate says every entry of the embedding matrix is below
  +∞ in absolute value, and an extended real whose absolute value is below +∞ is a real number.
-/
import proofs.«142021_j72481868087461_2_alg».proof.Pre_finite_inputs
import Idealize.ShloMosaic.PureOps.Ideal.Laws
import Idealize.ShloMosaic.Lib.ReduceAll
import Idealize.ShloMosaic.Lib.ValueIdx

noncomputable section

namespace Cert.Pre_finite_inputs.Finite

open Idealize.ShloMosaic Cert.Pre_finite_inputs

instance : Subsingleton S_.Idx := ⟨fun a b => funext fun d => d.elim0⟩

/-- An extended real whose absolute value is below the word of +∞ is a real number. -/
theorem real_of_abs_lt (a : EReal) (h : Ideal.cmp .olt (max a (-a)) (Ideal.ofBits .f32 0x7F800000#32) = 1#1) : ∃ r : ℝ, a = (r : EReal) := by
  have hT : Ideal.ofBits .f32 0x7F800000#32 = (⊤ : EReal) := by simp [Ideal.ofBits, Ideal.ieee]
  rw [hT] at h
  induction a using EReal.rec with
  | bot => simp [Ideal.cmp] at h
  | coe r => exact ⟨r, rfl⟩
  | top => simp [Ideal.cmp] at h

/-- Under the precondition every entry of the embedding matrix is a real number. -/
theorem real_of_pre [Facts] (x : FVec Ideal S4096x128 .f32) (l : IVec S4096 32) (h : fn (F := Ideal) x l = fun _ => 1#1)
    (i : S4096x128.Idx) : ∃ r : ℝ, x i = (r : EReal) := by
  have h0 := congrFun h ValueIdx.ix0
  dsimp only [fn] at h0
  have hi := Host.reduce_andi_all _ _ _ _ _ h0 i
  exact real_of_abs_lt (x i) hi

end Cert.Pre_finite_inputs.Finite

end
-- ==== Proof.lean ====
/-
  The certificate of a multi-similarity loss kernel against its reference.

  The kernel tiles the 4096 anchors into 32 blocks of 128 rows.  For each block it forms the similarities of the
  block's rows to all 4096 samples, mines per row the hardest negative (a maximum from -∞) and the hardest positive (a
  minimum from +∞), keeps the positives below the first plus a margin and the negatives above the second minus it,
  sums an exponential of the similarity over each kept set, and stores per row the contribution
  log1p(positive sum) + 0.1 · log1p(negative sum) where the row is valid (0 elsewhere) and the validity flag as 1 or 0;
  the host then divides the sum of the contributions by the sum of the flags raised to at least one.  The reference
  computes the same quantities on the whole 4096 × 4096 similarity matrix.  The two differ in the arrangement (blocks
  against whole arrays: the same sums and extremes on the extended reals), in how a row is found valid — the kernel asks
  whether the mined minimum is below +∞, the mined maximum above -∞ and the two exponential sums positive, the reference
  whether each of the four masks has an entry — and in how the valid rows are counted (a float sum of ones against an
  integer count converted to float).  The two validity tests agree when every similarity is a real number: then a
  masked extreme is finite exactly when its mask is non-empty, and a sum of exponentials, each a positive real, is
  positive exactly when it has a term.  Real similarities follow from the precondition, which says every entry of the
  embedding matrix is finite.

  The three frames are the runs with the results dropped; the kernel's idealization rewrote nothing.
-/
import proofs.«142021_j72481868087461_2_alg».proof.Defs
import proofs.«142021_j72481868087461_2_alg».proof.Proof.Gen.Kernel
import proofs.«142021_j72481868087461_2_alg».proof.Proof.Gen.Kernel.Skeleton
import proofs.«142021_j72481868087461_2_alg».proof.Proof.Gen.Kernel.Launch
import proofs.«142021_j72481868087461_2_alg».proof.Proof.Gen.Kernel.Points
import proofs.«142021_j72481868087461_2_alg».proof.Proof.Gen.KernelIdeal
import proofs.«142021_j72481868087461_2_alg».proof.Proof.Gen.KernelIdeal.Skeleton
import proofs.«142021_j72481868087461_2_alg».proof.Proof.Gen.KernelIdeal.Launch
import proofs.«142021_j72481868087461_2_alg».proof.Proof.Gen.KernelIdeal.Points
import proofs.«142021_j72481868087461_2_alg».proof.Proof.Gen.ReferenceIdeal
import proofs.«142021_j72481868087461_2_alg».proof.Proof.Gen.Pre_finite_inputs
import proofs.«142021_j72481868087461_2_alg».proof.Proof.Gen.ReferenceIdeal.Run
import proofs.«142021_j72481868087461_2_alg».proof.Proof.Gen.ReferenceIdeal.Read
import proofs.«142021_j72481868087461_2_alg».proof.Proof.KRun
import proofs.«142021_j72481868087461_2_alg».proof.Proof.Value
import proofs.«142021_j72481868087461_2_alg».proof.Proof.RefValue
import proofs.«142021_j72481868087461_2_alg».proof.Proof.LossAgree
import proofs.«142021_j72481868087461_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments as launched: its run with the result dropped. -/
theorem frame_kernel : Cert.frame_Kernel := fun m ρ _ =>
  (θ_run Cert.Kernel.defs _ _).mono (fun _ h c => ⟨(h c).2.1, (h c).2.2⟩) (Cert.Kernel.Body.run_main (F := Bits) m ρ)

/-- The idealized kernel likewise. -/
theorem frame_kernelIdeal : Cert.frame_KernelIdeal := fun m ρ _ =>
  (θ_run Cert.KernelIdeal.defs _ _).mono (fun _ h c => ⟨(h c).2.1, (h c).2.2⟩) (Cert.KernelIdeal.Body.run_main (F := Ideal) m ρ)

/-- The reference's frame: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance both programs end with the loss of the launched arguments: the kernel's with the validity test
    through the mined extremes and the sums, the reference's with the test through the masks, equal because the
    precondition makes every embedding entry real. -/
theorem algebraic : Cert.algebraic_KernelIdeal_ReferenceIdeal := by
  intro m ρ m' ρ' hpre hagree
  refine ⟨fun c => (fun _ => Cert.MultiSim.lossK (Cert.KernelIdeal.Body.embOf m c) (Cert.KernelIdeal.Body.labOf m c)), ?_, ?_⟩
  · refine (θ_run Cert.KernelIdeal.defs _ _).mono (fun r h c => ⟨(h c).1.trans ?_, (h c).2.1, (h c).2.2⟩)
      (Cert.KernelIdeal.Body.run_main (F := Ideal) m ρ)
    funext i
    exact Cert.KernelIdeal.Body.result_eq m c i
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v66_eq, (hagree c).1, (hagree c).2]
    funext i
    rw [Cert.ReferenceIdeal.RefValue.result_eq]
    exact (Cert.MultiSim.lossK_eq_lossR _ _ fun p d =>
      Cert.Pre_finite_inputs.Finite.real_of_pre _ _ (hpre c) (ValueIdx.ix2 p d)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
